-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S1024x1024 : Shape := ⟨2, ![1024, 1024]⟩
abbrev S1024 : Shape := ⟨1, ![1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S64x1024 .f32) (main_arg1 : FVec F S1024x1024 .f32) (main_arg2 : FVec F S1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S64x1024 : Shape := ⟨2, ![64, 1024]⟩
abbrev S1024x1024 : Shape := ⟨2, ![1024, 1024]⟩
abbrev S1024 : Shape := ⟨1, ![1024]⟩
abbrev S32x2x1024 : Shape := ⟨3, ![32, 2, 1024]⟩
abbrev S1x2x1024 : Shape := ⟨3, ![1, 2, 1024]⟩
abbrev S2x1024x1024 : Shape := ⟨3, ![2, 1024, 1024]⟩
abbrev S1x2x256 : Shape := ⟨3, ![1, 2, 256]⟩
abbrev S2x256 : Shape := ⟨2, ![2, 256]⟩
abbrev S256x1024 : Shape := ⟨2, ![256, 1024]⟩
abbrev S2x256x1 : Shape := ⟨3, ![2, 256, 1]⟩
abbrev S1x256x1024 : Shape := ⟨3, ![1, 256, 1024]⟩
abbrev S2x256x1024 : Shape := ⟨3, ![2, 256, 1024]⟩
abbrev S1x1024 : Shape := ⟨2, ![1, 1024]⟩
abbrev S2x1024 : Shape := ⟨2, ![2, 1024]⟩
abbrev S2 : Shape := ⟨1, ![2]⟩
abbrev S2x1 : Shape := ⟨2, ![2, 1]⟩
abbrev S2x1x1024 : Shape := ⟨3, ![2, 1, 1024]⟩

abbrev nBuf : Space → Nat
  | .hbm => 6
  | .vmem => 8
  | .smem => 0
  | _ => 0

abbrev bufTy : (tb : Table) → Fin (tcTables nBuf tb) → BufTy
  | .hbm, ⟨0, _⟩ => ⟨S64x1024, .f32⟩
  | .hbm, ⟨1, _⟩ => ⟨S1024x1024, .f32⟩
  | .hbm, ⟨2, _⟩ => ⟨S1024, .f32⟩
  | .hbm, ⟨3, _⟩ => ⟨S32x2x1024, .f32⟩
  | .hbm, ⟨4, _⟩ => ⟨S32x2x1024, .f32⟩
  | .hbm, ⟨5, _⟩ => ⟨S64x1024, .f32⟩
  | .local _ .vmem, ⟨0, _⟩ => ⟨S1x2x1024, .f32⟩
  | .local _ .vmem, ⟨1, _⟩ => ⟨S1x2x1024, .f32⟩
  | .local _ .vmem, ⟨2, _⟩ => ⟨S1024x1024, .f32⟩
  | .local _ .vmem, ⟨3, _⟩ => ⟨S1024, .f32⟩
  | .local _ .vmem, ⟨4, _⟩ => ⟨S1x2x1024, .f32⟩
  | .local _ .vmem, ⟨5, _⟩ => ⟨S1x2x1024, .f32⟩
  | .local _ .vmem, ⟨6, _⟩ => ⟨S2x1024x1024, .f32⟩
  | .local _ .vmem, ⟨7, _⟩ => ⟨S2x1024x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x1024_S32x2x1024 : S64x1024.ShapeCasts S32x2x1024
  inb_S1x2x1024_S1x2x256_0_0_0 : ∀ a, (![0, 0, 0] : Fin 3 → Nat) a + S1x2x256.size a ≤ S1x2x1024.size a
  h_S1x2x256 : 0 < S1x2x256.numel
  shapeCasts_S1x2x256_S2x256 : S1x2x256.ShapeCasts S2x256
  inb_S1024x1024_S256x1024_0_0 : ∀ a, (![0, 0] : Fin 2 → Nat) a + S256x1024.size a ≤ S1024x1024.size a
  h_S256x1024 : 0 < S256x1024.numel
  shapeCasts_S2x256_S2x256x1 : S2x256.ShapeCasts S2x256x1
  shapeCasts_S256x1024_S1x256x1024 : S256x1024.ShapeCasts S1x256x1024
  broadcasts_S2x256x1_S2x256x1024 : S2x256x1.Broadcasts S2x256x1024
  broadcasts_S1x256x1024_S2x256x1024 : S1x256x1024.Broadcasts S2x256x1024
  inb_S2x1024x1024_S2x256x1024_0_0_0 : ∀ a, (![0, 0, 0] : Fin 3 → Nat) a + S2x256x1024.size a ≤ S2x1024x1024.size a
  h_S2x256x1024 : 0 < S2x256x1024.numel
  shapeCasts_S2x256x1024_S2x256x1024 : S2x256x1024.ShapeCasts S2x256x1024
  inb_S1x2x1024_S1x2x256_0_0_256 : ∀ a, (![0, 0, 256] : Fin 3 → Nat) a + S1x2x256.size a ≤ S1x2x1024.size a
  inb_S1024x1024_S256x1024_256_0 : ∀ a, (![256, 0] : Fin 2 → Nat) a + S256x1024.size a ≤ S1024x1024.size a
  inb_S2x1024x1024_S2x256x1024_0_256_0 : ∀ a, (![0, 256, 0] : Fin 3 → Nat) a + S2x256x1024.size a ≤ S2x1024x1024.size a
  inb_S1x2x1024_S1x2x256_0_0_512 : ∀ a, (![0, 0, 512] : Fin 3 → Nat) a + S1x2x256.size a ≤ S1x2x1024.size a
  inb_S1024x1024_S256x1024_512_0 : ∀ a, (![512, 0] : Fin 2 → Nat) a + S256x1024.size a ≤ S1024x1024.size a
  inb_S2x1024x1024_S2x256x1024_0_512_0 : ∀ a, (![0, 512, 0] : Fin 3 → Nat) a + S2x256x1024.size a ≤ S2x1024x1024.size a
  inb_S1x2x1024_S1x2x256_0_0_768 : ∀ a, (![0, 0, 768] : Fin 3 → Nat) a + S1x2x256.size a ≤ S1x2x1024.size a
  inb_S1024x1024_S256x1024_768_0 : ∀ a, (![768, 0] : Fin 2 → Nat) a + S256x1024.size a ≤ S1024x1024.size a
  inb_S2x1024x1024_S2x256x1024_0_768_0 : ∀ a, (![0, 768, 0] : Fin 3 → Nat) a + S2x256x1024.size a ≤ S2x1024x1024.size a
  inb_S2x1024x1024_S2x1024x1024_0_0_0 : ∀ a, (![0, 0, 0] : Fin 3 → Nat) a + S2x1024x1024.size a ≤ S2x1024x1024.size a
  h_S2x1024x1024 : 0 < S2x1024x1024.numel
  shapeCasts_S2x1024x1024_S2x1024x1024 : S2x1024x1024.ShapeCasts S2x1024x1024
  inb_S1024_S1024_0 : ∀ a, (![0] : Fin 1 → Nat) a + S1024.size a ≤ S1024.size a
  h_S1024 : 0 < S1024.numel
  shapeCasts_S1024_S1x1024 : S1024.ShapeCasts S1x1024
  reduces_S2x256x1024_S2x256 : S2x256x1024.Reduces [2] S2x256
  reduces_S2x256x1024_S2x1024 : S2x256x1024.Reduces [1] S2x1024
  broadcasts_S1x1024_S2x1024 : S1x1024.Broadcasts S2x1024
  reduces_S2x1024_S2 : S2x1024.Reduces [1] S2
  shapeCasts_S2_S2x1 : S2.ShapeCasts S2x1
  broadcasts_S2x1_S2x1024 : S2x1.Broadcasts S2x1024
  shapeCasts_S2x1024_S2x1x1024 : S2x1024.ShapeCasts S2x1x1024
  broadcasts_S2x1x1024_S2x256x1024 : S2x1x1024.Broadcasts S2x256x1024
  inb_S1x2x1024_S1x2x1024_0_0_0 : ∀ a, (![0, 0, 0] : Fin 3 → Nat) a + S1x2x1024.size a ≤ S1x2x1024.size a
  h_S1x2x1024 : 0 < S1x2x1024.numel
  shapeCasts_S1x2x1024_S2x1024 : S1x2x1024.ShapeCasts S2x1024
  shapeCasts_S2x1024_S1x2x1024 : S2x1024.ShapeCasts S1x2x1024
  shapeCasts_S32x2x1024_S64x1024 : S32x2x1024.ShapeCasts S64x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1024.size a ≤ S32x2x1024.size a
  hwx0_0 : ∀ i : grid0.Coords, EltTy.bits .f32 = 32 ∨ (Rect.block (s := S32x2x1024) S1x2x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x1024.size a ≤ S32x2x1024.size a
  hwx0_3 : ∀ i : grid0.Coords, EltTy.bits .f32 = 32 ∨ (Rect.block (s := S32x2x1024) S1x2x1024.size (cc0_transform_3 i) (hinb0_3 i)).WholeWords (EltTy.packing .f32)

variable [Facts₀]

abbrev win0_0 : Pipeline.Window sig grid0 :=
  Pipeline.Window.ofSpec (Memref.whole main_v0) S1x2x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024 : Shape := ⟨2, ![64, 1024]⟩
abbrev S1024x1024 : Shape := ⟨2, ![1024, 1024]⟩
abbrev S1024 : Shape := ⟨1, ![1024]⟩
abbrev S64x1024x1 : Shape := ⟨3, ![64, 1024, 1]⟩
abbrev S1x1024x1024 : Shape := ⟨3, ![1, 1024, 1024]⟩
abbrev S64x1024x1024 : Shape := ⟨3, ![64, 1024, 1024]⟩
abbrev S_ : Shape := ⟨0, ![]⟩
abbrev S1x1x1024 : Shape := ⟨3, ![1, 1, 1024]⟩
abbrev S1x1024 : Shape := ⟨2, ![1, 1024]⟩
abbrev S64 : Shape := ⟨1, ![64]⟩
abbrev S64x1 : Shape := ⟨2, ![64, 1]⟩
abbrev S64x1x1024 : Shape := ⟨3, ![64, 1, 1024]⟩

abbrev nBuf : Space → Nat
  | .hbm => 118
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x1024, .f32⟩
  | .hbm, ⟨2, _⟩ => ⟨S1024, .f32⟩
  | .hbm, ⟨3, _⟩ => ⟨S64x1024x1, .f32⟩
  | .hbm, ⟨4, _⟩ => ⟨S1x1024x1024, .f32⟩
  | .hbm, ⟨5, _⟩ => ⟨S64x1024x1024, .f32⟩
  | .hbm, ⟨6, _⟩ => ⟨S64x1024x1024, .f32⟩
  | .hbm, ⟨7, _⟩ => ⟨S64x1024x1024, .f32⟩
  | .hbm, ⟨8, _⟩ => ⟨S_, .f32⟩
  | .hbm, ⟨9, _⟩ => ⟨S1x1x1024, .f32⟩
  | .hbm, ⟨10, _⟩ => ⟨S_, .f32⟩
  | .hbm, ⟨11, _⟩ => ⟨S64x1024x1024, .f32⟩
  | .hbm, ⟨12, _⟩ => ⟨S64x1024x1024, .f32⟩
  | .hbm, ⟨13, _⟩ => ⟨S64x1024x1024, .f32⟩
  | .hbm, ⟨14, _⟩ => ⟨S_, .f32⟩
  | .hbm, ⟨15, _⟩ => ⟨S64x1024, .f32⟩
  | .hbm, ⟨16, _⟩ => ⟨S1x1024, .f32⟩
  | .hbm, ⟨17, _⟩ => ⟨S64x1024, .f32⟩
  | .hbm, ⟨18, _⟩ => ⟨S64x1024, .f32⟩
  | .hbm, ⟨19, _⟩ => ⟨S64x1024, .f32⟩
  | .hbm, ⟨20, _⟩ => ⟨S_, .f32⟩
  | .hbm, ⟨21, _⟩ => ⟨S64, .f32⟩
  | .hbm, ⟨22, _⟩ => ⟨S64x1, .f32⟩
  | .hbm, ⟨23, _⟩ => ⟨S64x1, .f32⟩
  | .hbm, ⟨24, _⟩ => ⟨S64x1, .f32⟩
  | .hbm, ⟨25, _⟩ => ⟨S_, .f32⟩
  | .hbm, ⟨26, _⟩ => ⟨S64x1, .f32⟩
  | .hbm, ⟨27, _⟩ => ⟨S64x1, .f32⟩
  | .hbm, ⟨28, _⟩ => ⟨S64x1, .f32⟩
  | .hbm, ⟨29, _⟩ => ⟨S64x1024, .f32⟩
  | .hbm, ⟨30, _⟩ => ⟨S64x1024, .f32⟩
  | .hbm, ⟨31, _⟩ => ⟨S_, .f32⟩
  | .hbm, ⟨32, _⟩ => ⟨S64x1, .f32⟩
  | .hbm, ⟨33, _⟩ => ⟨S64x1, .f32⟩
  | .hbm, ⟨34, _⟩ => ⟨S64x1024, .f32⟩
  | .hbm, ⟨35, _⟩ => ⟨S64x1024, .f32⟩
  | .hbm, ⟨36, _⟩ => ⟨S64x1x1024, .f32⟩
  | .hbm, ⟨37, _⟩ => ⟨S64x1024x1024, .f32⟩
  | .hbm, ⟨38, _⟩ => ⟨S64x1024x1024, .f32⟩
  | .hbm, ⟨39, _⟩ => ⟨S64x1024x1024, .f32⟩
  | .hbm, ⟨40, _⟩ => ⟨S_, .f32⟩
  | .hbm, ⟨41, _⟩ => ⟨S64x1024, .f32⟩
  | .hbm, ⟨42, _⟩ => ⟨S_, .f32⟩
  | .hbm, ⟨43, _⟩ => ⟨S64x1024, .f32⟩
  | .hbm, ⟨44, _⟩ => ⟨S64x1024, .f32⟩
  | .hbm, ⟨45, _⟩ => ⟨S64x1024x1, .f32⟩
  | .hbm, ⟨46, _⟩ => ⟨S64x1024x1024, .f32⟩
  | .hbm, ⟨47, _⟩ => ⟨S64x1024x1024, .f32⟩
  | .hbm, ⟨48, _⟩ => ⟨S64x1024x1024, .f32⟩
  | .hbm, ⟨49, _⟩ => ⟨S_, .f32⟩
  | .hbm, ⟨50, _⟩ => ⟨S64x1024, .f32⟩
  | .hbm, ⟨51, _⟩ => ⟨S64x1024x1, .f32⟩
  | .hbm, ⟨52, _⟩ => ⟨S64x1024x1024, .f32⟩
  | .hbm, ⟨53, _⟩ => ⟨S64x1024x1024, .f32⟩
  | .hbm, ⟨54, _⟩ => ⟨S64x1024x1024, .f32⟩
  | .hbm, ⟨55, _⟩ => ⟨S_, .f32⟩
  | .hbm, ⟨56, _⟩ => ⟨S64x1024, .f32⟩
  | .hbm, ⟨57, _⟩ => ⟨S1x1024, .f32⟩
  | .hbm, ⟨58, _⟩ => ⟨S64x1024, .f32⟩
  | .hbm, ⟨59, _⟩ => ⟨S64x1024, .f32⟩
  | .hbm, ⟨60, _⟩ => ⟨S64x1024, .f32⟩
  | .hbm, ⟨61, _⟩ => ⟨S_, .f32⟩
  | .hbm, ⟨62, _⟩ => ⟨S64, .f32⟩
  | .hbm, ⟨63, _⟩ => ⟨S64x1, .f32⟩
  | .hbm, ⟨64, _⟩ => ⟨S64x1, .f32⟩
  | .hbm, ⟨65, _⟩ => ⟨S64x1, .f32⟩
  | .hbm, ⟨66, _⟩ => ⟨S_, .f32⟩
  | .hbm, ⟨67, _⟩ => ⟨S64x1, .f32⟩
  | .hbm, ⟨68, _⟩ => ⟨S64x1, .f32⟩
  | .hbm, ⟨69, _⟩ => ⟨S64x1, .f32⟩
  | .hbm, ⟨70, _⟩ => ⟨S64x1024, .f32⟩
  | .hbm, ⟨71, _⟩ => ⟨S64x1024, .f32⟩
  | .hbm, ⟨72, _⟩ => ⟨S_, .f32⟩
  | .hbm, ⟨73, _⟩ => ⟨S64x1, .f32⟩
  | .hbm, ⟨74, _⟩ => ⟨S64x1, .f32⟩
  | .hbm, ⟨75, _⟩ => ⟨S64x1024, .f32⟩
  | .hbm, ⟨76, _⟩ => ⟨S64x1024, .f32⟩
  | .hbm, ⟨77, _⟩ => ⟨S64x1x1024, .f32⟩
  | .hbm, ⟨78, _⟩ => ⟨S64x1024x1024, .f32⟩
  | .hbm, ⟨79, _⟩ => ⟨S64x1024x1024, .f32⟩
  | .hbm, ⟨80, _⟩ => ⟨S64x1024x1024, .f32⟩
  | .hbm, ⟨81, _⟩ => ⟨S_, .f32⟩
  | .hbm, ⟨82, _⟩ => ⟨S64x1024, .f32⟩
  | .hbm, ⟨83, _⟩ => ⟨S_, .f32⟩
  | .hbm, ⟨84, _⟩ => ⟨S64x1024, .f32⟩
  | .hbm, ⟨85, _⟩ => ⟨S64x1024, .f32⟩
  | .hbm, ⟨86, _⟩ => ⟨S64x1024x1, .f32⟩
  | .hbm, ⟨87, _⟩ => ⟨S64x1024x1024, .f32⟩
  | .hbm, ⟨88, _⟩ => ⟨S64x1024x1024, .f32⟩
  | .hbm, ⟨89, _⟩ => ⟨S64x1024x1024, .f32⟩
  | .hbm, ⟨90, _⟩ => ⟨S_, .f32⟩
  | .hbm, ⟨91, _⟩ => ⟨S64x1024, .f32⟩
  | .hbm, ⟨92, _⟩ => ⟨S64x1024x1, .f32⟩
  | .hbm, ⟨93, _⟩ => ⟨S64x1024x1024, .f32⟩
  | .hbm, ⟨94, _⟩ => ⟨S64x1024x1024, .f32⟩
  | .hbm, ⟨95, _⟩ => ⟨S64x1024x1024, .f32⟩
  | .hbm, ⟨96, _⟩ => ⟨S_, .f32⟩
  | .hbm, ⟨97, _⟩ => ⟨S64x1024, .f32⟩
  | .hbm, ⟨98, _⟩ => ⟨S1x1024, .f32⟩
  | .hbm, ⟨99, _⟩ => ⟨S64x1024, .f32⟩
  | .hbm, ⟨100, _⟩ => ⟨S64x1024, .f32⟩
  | .hbm, ⟨101, _⟩ => ⟨S64x1024, .f32⟩
  | .hbm, ⟨102, _⟩ => ⟨S_, .f32⟩
  | .hbm, ⟨103, _⟩ => ⟨S64, .f32⟩
  | .hbm, ⟨104, _⟩ => ⟨S64x1, .f32⟩
  | .hbm, ⟨105, _⟩ => ⟨S64x1, .f32⟩
  | .hbm, ⟨106, _⟩ => ⟨S64x1, .f32⟩
  | .hbm, ⟨107, _⟩ => ⟨S_, .f32⟩
  | .hbm, ⟨108, _⟩ => ⟨S64x1, .f32⟩
  | .hbm, ⟨109, _⟩ => ⟨S64x1, .f32⟩
  | .hbm, ⟨110, _⟩ => ⟨S64x1, .f32⟩
  | .hbm, ⟨111, _⟩ => ⟨S64x1024, .f32⟩
  | .hbm, ⟨112, _⟩ => ⟨S64x1024, .f32⟩
  | .hbm, ⟨113, _⟩ => ⟨S_, .f32⟩
  | .hbm, ⟨114, _⟩ => ⟨S64x1, .f32⟩
  | .hbm, ⟨115, _⟩ => ⟨S64x1, .f32⟩
  | .hbm, ⟨116, _⟩ => ⟨S64x1024, .f32⟩
  | .hbm, ⟨117, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call1_v0 : Ref sig .tc := ⟨.hbm, 60, rfl⟩
abbrev main_call1_cst : Ref sig .tc := ⟨.hbm, 61, rfl⟩
abbrev main_call1_v1 : Ref sig .tc := ⟨.hbm, 62, rfl⟩
abbrev main_call1_v2 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_call2_v0 : Ref sig .tc := ⟨.hbm, 101, rfl⟩
abbrev main_call2_cst : Ref sig .tc := ⟨.hbm, 102, rfl⟩
abbrev main_call2_v1 : Ref sig .tc := ⟨.hbm, 103, rfl⟩
abbrev main_call2_v2 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]

class Facts₀ : Prop where
  bcast_S64x1024_S64x1024x1_0_1 : S64x1024.BroadcastsInDim S64x1024x1 (![0, 1] : Fin 2 → Fin S64x1024x1.rank)
  bcast_S1024x1024_S1x1024x1024_1_2 : S1024x1024.BroadcastsInDim S1x1024x1024 (![1, 2] : Fin 2 → Fin S1x1024x1024.rank)
  bcast_S64x1024x1_S64x1024x1024_0_1_2 : S64x1024x1.BroadcastsInDim S64x1024x1024 (![0, 1, 2] : Fin 3 → Fin S64x1024x1024.rank)
  bcast_S1x1024x1024_S64x1024x1024_0_1_2 : S1x1024x1024.BroadcastsInDim S64x1024x1024 (![0, 1, 2] : Fin 3 → Fin S64x1024x1024.rank)
  bcast_S_S1x1x1024 : S_.BroadcastsInDim S1x1x1024 (![] : Fin 0 → Fin S1x1x1024.rank)
  bcast_S_S64x1024x1024 : S_.BroadcastsInDim S64x1024x1024 (![] : Fin 0 → Fin S64x1024x1024.rank)
  bcast_S1x1x1024_S64x1024x1024_0_1_2 : S1x1x1024.BroadcastsInDim S64x1024x1024 (![0, 1, 2] : Fin 3 → Fin S64x1024x1024.rank)
  reducesTo_S64x1024x1024_S64x1024_d1 : S64x1024x1024.ReducesTo [1] S64x1024
  h_S_ : 0 < S_.numel
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  reducesTo_S64x1024_S64_d1 : S64x1024.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x1024_0_1 : S64x1.BroadcastsInDim S64x1024 (![0, 1] : Fin 2 → Fin S64x1024.rank)
  bcast_S64x1024_S64x1x1024_0_2 : S64x1024.BroadcastsInDim S64x1x1024 (![0, 2] : Fin 2 → Fin S64x1x1024.rank)
  bcast_S64x1x1024_S64x1024x1024_0_1_2 : S64x1x1024.BroadcastsInDim S64x1024x1024 (![0, 1, 2] : Fin 3 → Fin S64x1024x1024.rank)
  reducesTo_S64x1024x1024_S64x1024_d2 : S64x1024x1024.ReducesTo [2] S64x1024
  bcast_S_S64x1024 : S_.BroadcastsInDim S64x1024 (![] : Fin 0 → Fin S64x1024.rank)

variable [Facts₀]

class Facts : Prop extends Facts₀ where

variable [Facts]
-- ==== Proof.Routing.lean ====
/-
  Capsule routing by agreement on the extended reals — the function both programs compute, row by row.

  One batch row carries k input capsules; its votes are uh i o = u i · w i o for n output lanes. A round
  averages the votes with coupling coefficients c i o, adds the bias and squashes the result:
  v o = squash (∑ i, uh i o · c i o + bias o). The first round's coefficients are uniform, 1/n; the logits then
  grow by the agreement uh i o · v o, and the next coefficients are the softmax of the logits along the lanes.
  Three rounds: uniform, softmax of the first logits, softmax of the second.

  The two programs differ in three places, each an identity on the extended reals that needs no finiteness:
  the squared norm taken as (√s)·(√s) instead of s, for s = ∑ x² ≥ 0; the uniform coefficient 1/1024 written as a
  constant instead of the softmax of a zero row; the sum over the 1024 capsules taken 256 at a time.
-/
import Idealize.ShloMosaic.PureOps.Ideal
import Idealize.ShloMosaic.PureOps.Ideal.Laws

noncomputable section

namespace Cert.Routing

open Idealize.ShloMosaic

/-- The words both programs spell: -∞, 1, the guard 1e-5 under the quotient, and 2⁻¹⁰. -/
abbrev negInf : EReal := Ideal.ofBits .f32 0xFF800000#32
abbrev one : EReal := Ideal.ofBits .f32 0x3F800000#32
abbrev guard : EReal := Ideal.ofBits .f32 0x3727C5AC#32
abbrev uniform : EReal := Ideal.ofBits .f32 0x3A800000#32

variable {n k : ℕ}

/-- A row's maximum as both programs take it: the fold of max from -∞, met once more with -∞. -/
def rowMax (f : Fin n → EReal) : EReal := max negInf (Finset.univ.fold max negInf f)

/-- The softmax of a row of logits. -/
def softmax (f : Fin n → EReal) (o : Fin n) : EReal :=
  Ideal.div (Ideal.exp (f o - rowMax f)) (∑ o', Ideal.exp (f o' - rowMax f))

/-- The squared length of a row. -/
def normSq (x : Fin n → EReal) : EReal := ∑ o, x o * x o

/-- squash x = (|x|² / (1 + |x|²)) · x / (|x| + guard). -/
def squash (x : Fin n → EReal) (o : Fin n) : EReal :=
  Ideal.div (Ideal.div (normSq x) (one + normSq x) * x o) (Ideal.sqrt (normSq x) + guard)

/-- The votes averaged with coefficients c, plus the bias. -/
def vote (uh c : Fin k → Fin n → EReal) (bias : Fin n → EReal) (o : Fin n) : EReal :=
  (∑ i, uh i o * c i o) + bias o

/-- The votes of one batch row. -/
def votes (u : Fin k → EReal) (w : Fin k → Fin n → EReal) (i : Fin k) (o : Fin n) : EReal := u i * w i o

/-- First round: uniform coefficients. -/
def v1 (u : Fin k → EReal) (w : Fin k → Fin n → EReal) (bias : Fin n → EReal) : Fin n → EReal :=
  squash (vote (votes u w) (fun _ _ => uniform) bias)

/-- The logits after the first round. -/
def b1 (u : Fin k → EReal) (w : Fin k → Fin n → EReal) (bias : Fin n → EReal) (i : Fin k) (o : Fin n) : EReal :=
  votes u w i o * v1 u w bias o

/-- Second round. -/
def v2 (u : Fin k → EReal) (w : Fin k → Fin n → EReal) (bias : Fin n → EReal) : Fin n → EReal :=
  squash (vote (votes u w) (fun i => softmax (b1 u w bias i)) bias)

/-- The logits after the second round. -/
def b2 (u : Fin k → EReal) (w : Fin k → Fin n → EReal) (bias : Fin n → EReal) (i : Fin k) (o : Fin n) : EReal :=
  b1 u w bias i o + votes u w i o * v2 u w bias o

/-- Third round: the result. -/
def route (u : Fin k → EReal) (w : Fin k → Fin n → EReal) (bias : Fin n → EReal) : Fin n → EReal :=
  squash (vote (votes u w) (fun i => softmax (b2 u w bias i)) bias)

/-! ## The three identities -/

theorem negInf_eq : negInf = ⊥ := by simp [negInf, Ideal.ofBits, Ideal.ieee]

theorem one_eq : one = 1 := by simp [one, Ideal.ofBits, Ideal.ieee, -EReal.coe_mul]; norm_num

theorem uniform_eq : uniform = ((1 / 1024 : ℝ) : EReal) := by
  simp [uniform, Ideal.ofBits, Ideal.ieee, -EReal.coe_mul]; norm_num

/-- A square is not negative on the extended reals, so neither is a squared length. -/
theorem mul_self_nonneg' (x : EReal) : 0 ≤ x * x := by
  induction x using EReal.rec with
  | bot => simp
  | top => simp
  | coe r => exact_mod_cast mul_self_nonneg r

theorem normSq_nonneg (x : Fin n → EReal) : 0 ≤ normSq x :=
  Finset.sum_nonneg fun o _ => mul_self_nonneg' (x o)

theorem sqrt_top : Ideal.sqrt ⊤ = ⊤ := rfl
theorem sqrt_coe (r : ℝ) : Ideal.sqrt (r : EReal) = if r < 0 then ⊥ else (Real.sqrt r : EReal) := rfl
theorem exp_coe (r : ℝ) : Ideal.exp (r : EReal) = (Real.exp r : EReal) := rfl

/-- (√s)·(√s) = s for s ≥ 0, +∞ included. -/
theorem sqrt_mul_self {s : EReal} (h : 0 ≤ s) : Ideal.sqrt s * Ideal.sqrt s = s := by
  induction s using EReal.rec with
  | bot => simp at h
  | top => rw [sqrt_top]; simp
  | coe r =>
    have hr : 0 ≤ r := by exact_mod_cast h
    rw [sqrt_coe, if_neg (not_lt.mpr hr), ← EReal.coe_mul, Real.mul_self_sqrt hr]

/-- The softmax of a zero row of 1024 lanes is the uniform coefficient 2⁻¹⁰. -/
theorem softmax_zero (o : Fin 1024) : softmax (fun _ : Fin 1024 => (0 : EReal)) o = uniform := by
  have hmax : rowMax (fun _ : Fin 1024 => (0 : EReal)) = 0 := by
    unfold rowMax
    rw [negInf_eq, Finset.fold_const (0 : EReal) (by simp), if_neg Finset.univ_nonempty.ne_empty]
    simp
  unfold softmax
  rw [hmax, uniform_eq]
  have hexp : Ideal.exp ((0 : EReal) - 0) = 1 := by
    rw [sub_zero]; show Ideal.exp ((0 : ℝ) : EReal) = 1; rw [exp_coe, Real.exp_zero]; rfl
  rw [Finset.sum_const, Finset.card_univ, Fintype.card_fin, hexp]
  have h1024 : ((1024 : ℕ) • (1 : EReal)) = ((1024 : ℝ) : EReal) := by
    simp
    first
      | rfl
      | norm_cast
      | (rw [show (1024 : EReal) = ((1024 : ℕ) : EReal) from (Nat.cast_ofNat).symm, ← EReal.coe_natCast]; norm_num)
  rw [h1024, Ideal.div_coe (by norm_num : (1024 : ℝ) ≠ 0), one_mul]

/-- A sum over 1024 terms taken 256 at a time, accumulated from zero in order. -/
theorem sum_chunks {M : Type*} [AddCommMonoid M] (f : Fin 1024 → M) :
    ∑ i, f i = (((0 + ∑ j : Fin 256, f ⟨j.val, by omega⟩) + ∑ j : Fin 256, f ⟨256 + j.val, by omega⟩)
      + ∑ j : Fin 256, f ⟨512 + j.val, by omega⟩) + ∑ j : Fin 256, f ⟨768 + j.val, by omega⟩ := by
  have e : ∑ i : Fin (256 + 256 + 256 + 256), f i = ∑ i : Fin 1024, f i := rfl
  rw [← e, Fin.sum_univ_add, Fin.sum_univ_add, Fin.sum_univ_add, zero_add]
  refine congrArg₂ (· + ·) (congrArg₂ (· + ·) (congrArg₂ (· + ·) ?_ ?_) ?_) ?_ <;>
    exact Finset.sum_congr rfl fun j _ => congrArg f (Fin.ext (by simp only [Fin.val_natAdd, Fin.val_castAdd]))

end Cert.Routing

end
-- ==== Proof.ChunkOps.lean ====
/-
  The kernel's vector operations on a block of two batch rows, read at an index.

  A block holds two batch rows. The 1024 input capsules are taken 256 at a time: a chunk of logits or of votes is a
  [2, 256, 1024] vector (row, capsule within the chunk, lane). Along the lanes of a chunk the kernel takes the
  softmax; along the capsules it sums the votes weighted by it; the squash acts on a [2, 1024] vector row by row;
  the logits' update adds votes times the squashed row. Each is stated here once, as a function of vectors, and
  read at (row, capsule, lane) as the plain formula of Routing.lean.
-/
import proofs.«110863_j61160334295610_2_alg».proof.Proof.Gen.KernelIdeal
import proofs.«110863_j61160334295610_2_alg».proof.Proof.Routing
import Idealize.ShloMosaic.Lib.ValueIdx
import Idealize.ShloMosaic.Lib.Pipeline.Value
import Idealize.ShloMosaic.PureOps.Ideal.Laws

noncomputable section

namespace Cert.KernelIdeal.Rows

open Idealize.ShloMosaic Idealize.ShloMosaic.ValueIdx Cert.KernelIdeal Cert.KernelIdeal.Facts₀ Cert.KernelIdeal.Facts Cert.Routing

variable {F : FTy → Type} [FloatOps F]

/-! ## The operations, at any float instance -/

/-- A [2, 256] vector laid along the 1024 lanes. -/
def lanes (v : FVec F S2x256 .f32) : FVec F S2x256x1024 .f32 :=
  broadcastTo S2x256x1024 (shapeCast S2x256x1 v shapeCasts_S2x256_S2x256x1) broadcasts_S2x256x1_S2x256x1024

/-- The maximum along the lanes, started from -∞ and met once more with -∞. -/
def rowMaxV (b : Vec F S2x256x1024 .f32) : FVec F S2x256 .f32 :=
  maximumf (broadcast S2x256 (Scalar.ofBits .f32 0xFF800000#32))
    (multiReduction .maximumf [2] S2x256 b 0xFF800000#32 reduces_S2x256x1024_S2x256 (.inl rfl) rfl)

/-- exp (b - max b) along the lanes. -/
def expShift (b : Vec F S2x256x1024 .f32) : FVec F S2x256x1024 .f32 :=
  exp (subf b (lanes (rowMaxV b)))

/-- The sum along the lanes. -/
def laneSum (x : FVec F S2x256x1024 .f32) : FVec F S2x256 .f32 :=
  multiReduction .add [2] S2x256 x 0x00000000#32 reduces_S2x256x1024_S2x256 (.inl rfl) rfl

/-- The softmax along the lanes of a chunk of logits. -/
def softmaxV (b : Vec F S2x256x1024 .f32) : FVec F S2x256x1024 .f32 :=
  divf (expShift b) (lanes (laneSum (expShift b)))

/-- The sum over a chunk's 256 capsules. -/
def capsuleSum (x : FVec F S2x256x1024 .f32) : FVec F S2x1024 .f32 :=
  multiReduction .add [1] S2x1024 x 0x00000000#32 reduces_S2x256x1024_S2x1024 (.inl rfl) rfl

/-- A chunk's share of the weighted vote: its votes times the softmax of its logits, summed over its capsules. -/
def chunkVote (b uh : Vec F S2x256x1024 .f32) : FVec F S2x1024 .f32 :=
  capsuleSum (mulf uh (softmaxV b))

/-- A row's squared length, kept as a column. -/
def normSqV (x : FVec F S2x1024 .f32) : FVec F S2x1 .f32 :=
  shapeCast S2x1 (multiReduction .add [1] S2 (mulf x x) 0x00000000#32 reduces_S2x1024_S2 (.inl rfl) rfl) shapeCasts_S2_S2x1

/-- The squash of each row. -/
def squashV (x : FVec F S2x1024 .f32) : FVec F S2x1024 .f32 :=
  divf (mulf (broadcastTo S2x1024 (divf (normSqV x) (addf (broadcast S2x1 (Scalar.ofBits .f32 0x3F800000#32)) (normSqV x))) broadcasts_S2x1_S2x1024) x)
    (broadcastTo S2x1024 (addf (sqrt (normSqV x)) (broadcast S2x1 (Scalar.ofBits .f32 0x3727C5AC#32))) broadcasts_S2x1_S2x1024)

/-- The logits of a chunk after a round: b + uh · v, the squashed row v laid along the capsules. -/
def updateV (v : FVec F S2x1024 .f32) (uh b : Vec F S2x256x1024 .f32) : FVec F S2x256x1024 .f32 :=
  shapeCast S2x256x1024
    (addf b (mulf uh (broadcastTo S2x256x1024 (shapeCast S2x1x1024 v shapeCasts_S2x1024_S2x1x1024) broadcasts_S2x1x1024_S2x256x1024)))
    shapeCasts_S2x256x1024_S2x256x1024

/-- A chunk of votes: u (row, capsule) · w (capsule, lane). -/
def votesV (u : Vec F S1x2x256 .f32) (w : Vec F S256x1024 .f32) : FVec F S2x256x1024 .f32 :=
  shapeCast S2x256x1024
    (mulf (broadcastTo S2x256x1024 (shapeCast S2x256x1 (shapeCast S2x256 u shapeCasts_S1x2x256_S2x256) shapeCasts_S2x256_S2x256x1) broadcasts_S2x256x1_S2x256x1024)
      (broadcastTo S2x256x1024 (shapeCast S1x256x1024 w shapeCasts_S256x1024_S1x256x1024) broadcasts_S1x256x1024_S2x256x1024))
    shapeCasts_S2x256x1024_S2x256x1024

/-- The bias as a row laid along both batch rows. -/
def biasRows (bias : Vec F S1024 .f32) : FVec F S2x1024 .f32 :=
  broadcastTo S2x1024 (shapeCast S1x1024 bias shapeCasts_S1024_S1x1024) broadcasts_S1x1024_S2x1024

/-! ## Read at an index, on the extended reals -/

theorem lanes_apply (v : FVec Ideal S2x256 .f32) (r : Fin 2) (j : Fin 256) (o : Fin 1024) :
    lanes v (ix3 r j o) = v (ix2 r j) := by
  unfold lanes
  refine (broadcastTo_apply _ broadcasts_S2x256x1_S2x256x1024 (ix3 r j o) (ix3 r j (0 : Fin 1))
    (fun a => match a with | ⟨0, _⟩ => rfl | ⟨1, _⟩ => rfl | ⟨2, _⟩ => rfl)).trans ?_
  refine shapeCast_apply _ shapeCasts_S2x256_S2x256x1 (ix3 r j (0 : Fin 1)) (ix2 r j) ?_
  rw [Shape.rowMajor_val_two, Shape.rowMajor_val_three]
  show r.val * 256 + j.val = (r.val * 256 + j.val) * 1 + 0
  omega

theorem rowMaxV_apply (b : Vec Ideal S2x256x1024 .f32) (r : Fin 2) (j : Fin 256) :
    rowMaxV b (ix2 r j) = rowMax (fun o : Fin 1024 => b (ix3 r j o)) := by
  unfold rowMaxV rowMax
  show max (Ideal.ofBits .f32 0xFF800000#32) (multiReduction .maximumf [2] S2x256 b 0xFF800000#32 reduces_S2x256x1024_S2x256 (.inl rfl) rfl (ix2 r j)) = _
  refine congrArg (max _) ?_
  refine (Ideal.multiReduction_maximumf_single b _ reduces_S2x256x1024_S2x256 _ _ (ix2 r j)).trans ?_
  refine congrArg (Finset.fold max _ · Finset.univ) ?_
  funext o
  exact congrArg b (funext fun a => Fin.ext (by match a with | ⟨0, _⟩ => rfl | ⟨1, _⟩ => rfl | ⟨2, _⟩ => rfl))

theorem laneSum_apply (x : FVec Ideal S2x256x1024 .f32) (r : Fin 2) (j : Fin 256) :
    laneSum x (ix2 r j) = ∑ o : Fin 1024, x (ix3 r j o) := by
  unfold laneSum
  refine (Ideal.multiReduction_add_single x _ reduces_S2x256x1024_S2x256 _ _ (ix2 r j)).trans ?_
  refine Finset.sum_congr rfl fun o _ => congrArg x ?_
  exact funext fun a => Fin.ext (by match a with | ⟨0, _⟩ => rfl | ⟨1, _⟩ => rfl | ⟨2, _⟩ => rfl)

theorem expShift_apply (b : Vec Ideal S2x256x1024 .f32) (r : Fin 2) (j : Fin 256) (o : Fin 1024) :
    expShift b (ix3 r j o) = Ideal.exp (b (ix3 r j o) - rowMax (fun o' : Fin 1024 => b (ix3 r j o'))) := by
  unfold expShift
  show Ideal.exp (b (ix3 r j o) - lanes (rowMaxV b) (ix3 r j o)) = _
  rw [lanes_apply, rowMaxV_apply]

theorem softmaxV_apply (b : Vec Ideal S2x256x1024 .f32) (r : Fin 2) (j : Fin 256) (o : Fin 1024) :
    softmaxV b (ix3 r j o) = softmax (fun o' : Fin 1024 => b (ix3 r j o')) o := by
  unfold softmaxV softmax
  show Ideal.div (expShift b (ix3 r j o)) (lanes (laneSum (expShift b)) (ix3 r j o)) = _
  rw [lanes_apply, laneSum_apply, expShift_apply]
  refine congrArg (Ideal.div _) (Finset.sum_congr rfl fun o' _ => ?_)
  rw [expShift_apply]

theorem capsuleSum_apply (x : FVec Ideal S2x256x1024 .f32) (r : Fin 2) (o : Fin 1024) :
    capsuleSum x (ix2 r o) = ∑ j : Fin 256, x (ix3 r j o) := by
  unfold capsuleSum
  refine (Ideal.multiReduction_add_single x _ reduces_S2x256x1024_S2x1024 _ _ (ix2 r o)).trans ?_
  refine Finset.sum_congr rfl fun j _ => congrArg x ?_
  exact funext fun a => Fin.ext (by match a with | ⟨0, _⟩ => rfl | ⟨1, _⟩ => rfl | ⟨2, _⟩ => rfl)

theorem chunkVote_apply (b uh : Vec Ideal S2x256x1024 .f32) (r : Fin 2) (o : Fin 1024) :
    chunkVote b uh (ix2 r o) = ∑ j : Fin 256, uh (ix3 r j o) * softmax (fun o' : Fin 1024 => b (ix3 r j o')) o := by
  unfold chunkVote
  rw [capsuleSum_apply]
  refine Finset.sum_congr rfl fun j _ => ?_
  show uh (ix3 r j o) * softmaxV b (ix3 r j o) = _
  rw [softmaxV_apply]

/-- A [2, 1] column laid along the lanes of a [2, 1024] vector. -/
theorem col_apply (c : FVec Ideal S2x1 .f32) (r : Fin 2) (o : Fin 1024) :
    broadcastTo S2x1024 c broadcasts_S2x1_S2x1024 (ix2 r o) = c (ix2 r (0 : Fin 1)) :=
  broadcastTo_apply _ broadcasts_S2x1_S2x1024 (ix2 r o) (ix2 r (0 : Fin 1))
    (fun a => match a with | ⟨0, _⟩ => rfl | ⟨1, _⟩ => rfl)

theorem normSqV_apply (x : FVec Ideal S2x1024 .f32) (r : Fin 2) :
    normSqV x (ix2 r (0 : Fin 1)) = normSq (fun o : Fin 1024 => x (ix2 r o)) := by
  unfold normSqV normSq
  refine (shapeCast_apply _ shapeCasts_S2_S2x1 (ix2 r (0 : Fin 1)) (ix1 r) ?_).trans ?_
  · rw [Shape.rowMajor_val_one, Shape.rowMajor_val_two]
    show r.val = r.val * 1 + 0
    omega
  refine (Ideal.multiReduction_add_single (mulf x x) _ reduces_S2x1024_S2 _ _ (ix1 r)).trans ?_
  refine Finset.sum_congr rfl fun o _ => ?_
  have e : (reduces_S2x1024_S2.lift (ix1 r) o : S2x1024.Idx) = ix2 r o :=
    funext fun a => Fin.ext (by match a with | ⟨0, _⟩ => rfl | ⟨1, _⟩ => rfl)
  exact congrArg (fun y => x y * x y) e

theorem squashV_apply (x : FVec Ideal S2x1024 .f32) (r : Fin 2) (o : Fin 1024) :
    squashV x (ix2 r o) = squash (fun o' : Fin 1024 => x (ix2 r o')) o := by
  unfold squashV squash
  show Ideal.div (broadcastTo S2x1024 _ broadcasts_S2x1_S2x1024 (ix2 r o) * x (ix2 r o))
    (broadcastTo S2x1024 _ broadcasts_S2x1_S2x1024 (ix2 r o)) = _
  rw [col_apply, col_apply]
  show Ideal.div (Ideal.div (normSqV x (ix2 r (0 : Fin 1))) (Ideal.ofBits .f32 0x3F800000#32 + normSqV x (ix2 r (0 : Fin 1))) * x (ix2 r o))
    (Ideal.sqrt (normSqV x (ix2 r (0 : Fin 1))) + Ideal.ofBits .f32 0x3727C5AC#32) = _
  rw [normSqV_apply]

theorem updateV_apply (v : FVec Ideal S2x1024 .f32) (uh b : Vec Ideal S2x256x1024 .f32) (r : Fin 2) (j : Fin 256) (o : Fin 1024) :
    updateV v uh b (ix3 r j o) = b (ix3 r j o) + uh (ix3 r j o) * v (ix2 r o) := by
  unfold updateV
  rw [shapeCast_self]
  show b (ix3 r j o) + uh (ix3 r j o) * broadcastTo S2x256x1024 _ broadcasts_S2x1x1024_S2x256x1024 (ix3 r j o) = _
  refine congrArg (fun z => b (ix3 r j o) + uh (ix3 r j o) * z) ?_
  refine (broadcastTo_apply _ broadcasts_S2x1x1024_S2x256x1024 (ix3 r j o) (ix3 r (0 : Fin 1) o)
    (fun a => match a with | ⟨0, _⟩ => rfl | ⟨1, _⟩ => rfl | ⟨2, _⟩ => rfl)).trans ?_
  refine shapeCast_apply _ shapeCasts_S2x1024_S2x1x1024 (ix3 r (0 : Fin 1) o) (ix2 r o) ?_
  rw [Shape.rowMajor_val_two, Shape.rowMajor_val_three]
  show r.val * 1024 + o.val = (r.val * 1 + 0) * 1024 + o.val
  omega

theorem votesV_apply (u : Vec Ideal S1x2x256 .f32) (w : Vec Ideal S256x1024 .f32) (r : Fin 2) (j : Fin 256) (o : Fin 1024) :
    votesV u w (ix3 r j o) = u (ix3 (0 : Fin 1) r j) * w (ix2 j o) := by
  unfold votesV
  rw [shapeCast_self]
  show lanes (F := Ideal) (shapeCast S2x256 u shapeCasts_S1x2x256_S2x256) (ix3 r j o)
    * broadcastTo S2x256x1024 _ broadcasts_S1x256x1024_S2x256x1024 (ix3 r j o) = _
  rw [lanes_apply]
  refine congrArg₂ (· * ·) ?_ ?_
  · refine shapeCast_apply _ shapeCasts_S1x2x256_S2x256 (ix2 r j) (ix3 (0 : Fin 1) r j) ?_
    rw [Shape.rowMajor_val_two, Shape.rowMajor_val_three]
    show (0 * 2 + r.val) * 256 + j.val = r.val * 256 + j.val
    omega
  · refine (broadcastTo_apply _ broadcasts_S1x256x1024_S2x256x1024 (ix3 r j o) (ix3 (0 : Fin 1) j o)
      (fun a => match a with | ⟨0, _⟩ => rfl | ⟨1, _⟩ => rfl | ⟨2, _⟩ => rfl)).trans ?_
    refine shapeCast_apply _ shapeCasts_S256x1024_S1x256x1024 (ix3 (0 : Fin 1) j o) (ix2 j o) ?_
    rw [Shape.rowMajor_val_two, Shape.rowMajor_val_three]
    show j.val * 1024 + o.val = (0 * 256 + j.val) * 1024 + o.val
    omega

theorem biasRows_apply (bias : Vec Ideal S1024 .f32) (r : Fin 2) (o : Fin 1024) :
    biasRows bias (ix2 r o) = bias (ix1 o) := by
  unfold biasRows
  refine (broadcastTo_apply _ broadcasts_S1x1024_S2x1024 (ix2 r o) (ix2 (0 : Fin 1) o)
    (fun a => match a with | ⟨0, _⟩ => rfl | ⟨1, _⟩ => rfl)).trans ?_
  refine shapeCast_apply _ shapeCasts_S1024_S1x1024 (ix2 (0 : Fin 1) o) (ix1 o) ?_
  rw [Shape.rowMajor_val_one, Shape.rowMajor_val_two]
  show o.val = 0 * 1024 + o.val
  omega

end Cert.KernelIdeal.Rows

end
-- ==== Proof.BlockFn.lean ====
/-
  The block the kernel writes at one grid point, as one pure function of the three blocks it loads.

  The body keeps the votes and the logits of the block's two batch rows in two scratch arrays [2, 1024, 1024],
  each written 256 capsules at a time. A load of a chunk after those stores reads the newest store of that chunk:
  stores of other chunks lie on other capsules (disjoint along axis 1) and are skipped. The logits start as one
  store of zeros over the whole array, which the first round reads chunk by chunk. With every load replaced by the
  stored value it reads, the body's result is the composition below: three rounds of vote-and-squash over the four
  chunks, the logits updated chunk by chunk between the rounds.
-/
import proofs.«110863_j61160334295610_2_alg».proof.Proof.Gen.KernelIdeal.Frame
import proofs.«110863_j61160334295610_2_alg».proof.Proof.ChunkOps
import Idealize.ShloMosaic.Lib.Pipeline.Value
import Idealize.ShloMosaic.Lib.Tactic

set_option maxRecDepth 16384

noncomputable section

namespace Cert.KernelIdeal.Block

open Idealize.ShloMosaic Idealize.ShloMosaic.TcCoe Idealize.ShloMosaic.Tactic Idealize.SL.Sem
open Cert.KernelIdeal Cert.KernelIdeal.Gen Cert.KernelIdeal.Rows

variable {F : FTy → Type} [FloatOps F]

/-! ## Loads of a scratch array after chunk stores -/

/-- A store of the 256 capsules from o and a load of the 256 capsules from o', the two ranges apart: the load reads
    the earlier stores. -/
theorem readCov_skip {sig : RefSig} {κ : Kind} {sp : Space} (v : View sig κ sp S2x1024x1024 .f32) (o o' : Nat)
    (h : o + 256 ≤ o' ∨ o' + 256 ≤ o)
    (inb : ∀ a, (![0, o, 0] : Fin 3 → Nat) a + S2x256x1024.size a ≤ S2x1024x1024.size a)
    (inb' : ∀ a, (![0, o', 0] : Fin 3 → Nat) a + S2x256x1024.size a ≤ S2x1024x1024.size a)
    (w : S2x256x1024.Idx → Elt F .f32) (L : List (View.Piece (Elt F) S2x1024x1024 .f32)) :
    v.readCov (⟨Rect.unit (s := S2x1024x1024) ![0, o, 0] S2x256x1024.size inb, w⟩ :: L) (Rect.unit (s := S2x1024x1024) ![0, o', 0] S2x256x1024.size inb').toLoadRect
      = v.readCov L (Rect.unit (s := S2x1024x1024) ![0, o', 0] S2x256x1024.size inb').toLoadRect :=
  View.readCov_cons_of_disjoint v (⟨Rect.unit (s := S2x1024x1024) ![0, o, 0] S2x256x1024.size inb, w⟩ : View.Piece (Elt F) S2x1024x1024 .f32) L
    (Rect.unit (s := S2x1024x1024) ![0, o', 0] S2x256x1024.size inb').toLoadRect (Rect.unit_disjoint (inb := inb) (inb' := inb') 1 h)

theorem skip_0_256 {sig : RefSig} {κ : Kind} {sp : Space} (v : View sig κ sp S2x1024x1024 .f32) (inb inb') (w : S2x256x1024.Idx → Elt F .f32)
    (L : List (View.Piece (Elt F) S2x1024x1024 .f32)) :
    v.readCov (no_index ((⟨Rect.unit (s := S2x1024x1024) ![0, 0, 0] S2x256x1024.size inb, w⟩ : View.Piece (Elt F) S2x1024x1024 .f32) :: L))
        (no_index (Rect.unit (s := S2x1024x1024) ![0, 256, 0] S2x256x1024.size inb').toLoadRect)
      = v.readCov L (Rect.unit (s := S2x1024x1024) ![0, 256, 0] S2x256x1024.size inb').toLoadRect :=
  readCov_skip v 0 256 (by decide) inb inb' w L
theorem skip_0_512 {sig : RefSig} {κ : Kind} {sp : Space} (v : View sig κ sp S2x1024x1024 .f32) (inb inb') (w : S2x256x1024.Idx → Elt F .f32)
    (L : List (View.Piece (Elt F) S2x1024x1024 .f32)) :
    v.readCov (no_index ((⟨Rect.unit (s := S2x1024x1024) ![0, 0, 0] S2x256x1024.size inb, w⟩ : View.Piece (Elt F) S2x1024x1024 .f32) :: L))
        (no_index (Rect.unit (s := S2x1024x1024) ![0, 512, 0] S2x256x1024.size inb').toLoadRect)
      = v.readCov L (Rect.unit (s := S2x1024x1024) ![0, 512, 0] S2x256x1024.size inb').toLoadRect :=
  readCov_skip v 0 512 (by decide) inb inb' w L
theorem skip_0_768 {sig : RefSig} {κ : Kind} {sp : Space} (v : View sig κ sp S2x1024x1024 .f32) (inb inb') (w : S2x256x1024.Idx → Elt F .f32)
    (L : List (View.Piece (Elt F) S2x1024x1024 .f32)) :
    v.readCov (no_index ((⟨Rect.unit (s := S2x1024x1024) ![0, 0, 0] S2x256x1024.size inb, w⟩ : View.Piece (Elt F) S2x1024x1024 .f32) :: L))
        (no_index (Rect.unit (s := S2x1024x1024) ![0, 768, 0] S2x256x1024.size inb').toLoadRect)
      = v.readCov L (Rect.unit (s := S2x1024x1024) ![0, 768, 0] S2x256x1024.size inb').toLoadRect :=
  readCov_skip v 0 768 (by decide) inb inb' w L
theorem skip_256_0 {sig : RefSig} {κ : Kind} {sp : Space} (v : View sig κ sp S2x1024x1024 .f32) (inb inb') (w : S2x256x1024.Idx → Elt F .f32)
    (L : List (View.Piece (Elt F) S2x1024x1024 .f32)) :
    v.readCov (no_index ((⟨Rect.unit (s := S2x1024x1024) ![0, 256, 0] S2x256x1024.size inb, w⟩ : View.Piece (Elt F) S2x1024x1024 .f32) :: L))
        (no_index (Rect.unit (s := S2x1024x1024) ![0, 0, 0] S2x256x1024.size inb').toLoadRect)
      = v.readCov L (Rect.unit (s := S2x1024x1024) ![0, 0, 0] S2x256x1024.size inb').toLoadRect :=
  readCov_skip v 256 0 (by decide) inb inb' w L
theorem skip_256_512 {sig : RefSig} {κ : Kind} {sp : Space} (v : View sig κ sp S2x1024x1024 .f32) (inb inb') (w : S2x256x1024.Idx → Elt F .f32)
    (L : List (View.Piece (Elt F) S2x1024x1024 .f32)) :
    v.readCov (no_index ((⟨Rect.unit (s := S2x1024x1024) ![0, 256, 0] S2x256x1024.size inb, w⟩ : View.Piece (Elt F) S2x1024x1024 .f32) :: L))
        (no_index (Rect.unit (s := S2x1024x1024) ![0, 512, 0] S2x256x1024.size inb').toLoadRect)
      = v.readCov L (Rect.unit (s := S2x1024x1024) ![0, 512, 0] S2x256x1024.size inb').toLoadRect :=
  readCov_skip v 256 512 (by decide) inb inb' w L
theorem skip_256_768 {sig : RefSig} {κ : Kind} {sp : Space} (v : View sig κ sp S2x1024x1024 .f32) (inb inb') (w : S2x256x1024.Idx → Elt F .f32)
    (L : List (View.Piece (Elt F) S2x1024x1024 .f32)) :
    v.readCov (no_index ((⟨Rect.unit (s := S2x1024x1024) ![0, 256, 0] S2x256x1024.size inb, w⟩ : View.Piece (Elt F) S2x1024x1024 .f32) :: L))
        (no_index (Rect.unit (s := S2x1024x1024) ![0, 768, 0] S2x256x1024.size inb').toLoadRect)
      = v.readCov L (Rect.unit (s := S2x1024x1024) ![0, 768, 0] S2x256x1024.size inb').toLoadRect :=
  readCov_skip v 256 768 (by decide) inb inb' w L
theorem skip_512_0 {sig : RefSig} {κ : Kind} {sp : Space} (v : View sig κ sp S2x1024x1024 .f32) (inb inb') (w : S2x256x1024.Idx → Elt F .f32)
    (L : List (View.Piece (Elt F) S2x1024x1024 .f32)) :
    v.readCov (no_index ((⟨Rect.unit (s := S2x1024x1024) ![0, 512, 0] S2x256x1024.size inb, w⟩ : View.Piece (Elt F) S2x1024x1024 .f32) :: L))
        (no_index (Rect.unit (s := S2x1024x1024) ![0, 0, 0] S2x256x1024.size inb').toLoadRect)
      = v.readCov L (Rect.unit (s := S2x1024x1024) ![0, 0, 0] S2x256x1024.size inb').toLoadRect :=
  readCov_skip v 512 0 (by decide) inb inb' w L
theorem skip_512_256 {sig : RefSig} {κ : Kind} {sp : Space} (v : View sig κ sp S2x1024x1024 .f32) (inb inb') (w : S2x256x1024.Idx → Elt F .f32)
    (L : List (View.Piece (Elt F) S2x1024x1024 .f32)) :
    v.readCov (no_index ((⟨Rect.unit (s := S2x1024x1024) ![0, 512, 0] S2x256x1024.size inb, w⟩ : View.Piece (Elt F) S2x1024x1024 .f32) :: L))
        (no_index (Rect.unit (s := S2x1024x1024) ![0, 256, 0] S2x256x1024.size inb').toLoadRect)
      = v.readCov L (Rect.unit (s := S2x1024x1024) ![0, 256, 0] S2x256x1024.size inb').toLoadRect :=
  readCov_skip v 512 256 (by decide) inb inb' w L
theorem skip_512_768 {sig : RefSig} {κ : Kind} {sp : Space} (v : View sig κ sp S2x1024x1024 .f32) (inb inb') (w : S2x256x1024.Idx → Elt F .f32)
    (L : List (View.Piece (Elt F) S2x1024x1024 .f32)) :
    v.readCov (no_index ((⟨Rect.unit (s := S2x1024x1024) ![0, 512, 0] S2x256x1024.size inb, w⟩ : View.Piece (Elt F) S2x1024x1024 .f32) :: L))
        (no_index (Rect.unit (s := S2x1024x1024) ![0, 768, 0] S2x256x1024.size inb').toLoadRect)
      = v.readCov L (Rect.unit (s := S2x1024x1024) ![0, 768, 0] S2x256x1024.size inb').toLoadRect :=
  readCov_skip v 512 768 (by decide) inb inb' w L
theorem skip_768_0 {sig : RefSig} {κ : Kind} {sp : Space} (v : View sig κ sp S2x1024x1024 .f32) (inb inb') (w : S2x256x1024.Idx → Elt F .f32)
    (L : List (View.Piece (Elt F) S2x1024x1024 .f32)) :
    v.readCov (no_index ((⟨Rect.unit (s := S2x1024x1024) ![0, 768, 0] S2x256x1024.size inb, w⟩ : View.Piece (Elt F) S2x1024x1024 .f32) :: L))
        (no_index (Rect.unit (s := S2x1024x1024) ![0, 0, 0] S2x256x1024.size inb').toLoadRect)
      = v.readCov L (Rect.unit (s := S2x1024x1024) ![0, 0, 0] S2x256x1024.size inb').toLoadRect :=
  readCov_skip v 768 0 (by decide) inb inb' w L
theorem skip_768_256 {sig : RefSig} {κ : Kind} {sp : Space} (v : View sig κ sp S2x1024x1024 .f32) (inb inb') (w : S2x256x1024.Idx → Elt F .f32)
    (L : List (View.Piece (Elt F) S2x1024x1024 .f32)) :
    v.readCov (no_index ((⟨Rect.unit (s := S2x1024x1024) ![0, 768, 0] S2x256x1024.size inb, w⟩ : View.Piece (Elt F) S2x1024x1024 .f32) :: L))
        (no_index (Rect.unit (s := S2x1024x1024) ![0, 256, 0] S2x256x1024.size inb').toLoadRect)
      = v.readCov L (Rect.unit (s := S2x1024x1024) ![0, 256, 0] S2x256x1024.size inb').toLoadRect :=
  readCov_skip v 768 256 (by decide) inb inb' w L
theorem skip_768_512 {sig : RefSig} {κ : Kind} {sp : Space} (v : View sig κ sp S2x1024x1024 .f32) (inb inb') (w : S2x256x1024.Idx → Elt F .f32)
    (L : List (View.Piece (Elt F) S2x1024x1024 .f32)) :
    v.readCov (no_index ((⟨Rect.unit (s := S2x1024x1024) ![0, 768, 0] S2x256x1024.size inb, w⟩ : View.Piece (Elt F) S2x1024x1024 .f32) :: L))
        (no_index (Rect.unit (s := S2x1024x1024) ![0, 512, 0] S2x256x1024.size inb').toLoadRect)
      = v.readCov L (Rect.unit (s := S2x1024x1024) ![0, 512, 0] S2x256x1024.size inb').toLoadRect :=
  readCov_skip v 768 512 (by decide) inb inb' w L

/-- A load through the newest store's own rectangle reads that store. -/
theorem readCov_same {sig : RefSig} {κ : Kind} {sp : Space} (v : View sig κ sp S2x1024x1024 .f32) (r : Rect S2x1024x1024)
    (w : r.shape.Idx → Elt F .f32) (L : List (View.Piece (Elt F) S2x1024x1024 .f32)) :
    v.readCov (no_index ((⟨r, w⟩ : View.Piece (Elt F) S2x1024x1024 .f32) :: L)) (no_index r.toLoadRect) = w :=
  View.readCov_cons_toLoadRect v r w L

theorem hz3 : (![0, 0, 0] : Fin 3 → Nat) = fun _ => 0 := funext fun a => by fin_cases a <;> rfl
theorem hz1 : (![0] : Fin 1 → Nat) = fun _ => 0 := funext fun a => by fin_cases a <;> rfl

/-- A chunk loaded from an array holding one store of the whole array reads that store through the chunk's rectangle. -/
theorem readCov_whole {sig : RefSig} {κ : Kind} {sp : Space} (v : View sig κ sp S2x1024x1024 .f32) (inb)
    (w : S2x1024x1024.Idx → Elt F .f32) (r : Rect S2x1024x1024) :
    v.readCov (no_index [(⟨Rect.unit (s := S2x1024x1024) ![0, 0, 0] S2x1024x1024.size inb, w⟩ : View.Piece (Elt F) S2x1024x1024 .f32)]) (no_index r.toLoadRect) = View.ld w r := by
  rw [View.readCov_eq_canon', View.canon_unit_zero hz3]

/-! ## The block as a function of the loaded blocks -/

section
variable (x0 : Vec F S1x2x1024 .f32) (x1 : Vec F S1024x1024 .f32) (x2 : Vec F S1024 .f32)

/-- The votes of chunk 0 … 3: the block's two rows of u against 256 rows of w. -/
def uh0 : FVec F S2x256x1024 .f32 :=
  votesV (View.ld x0 (Rect.unit (s := S1x2x1024) ![0, 0, 0] S1x2x256.size inb_S1x2x1024_S1x2x256_0_0_0))
    (View.ld x1 (Rect.unit (s := S1024x1024) ![0, 0] S256x1024.size inb_S1024x1024_S256x1024_0_0))
def uh1 : FVec F S2x256x1024 .f32 :=
  votesV (View.ld x0 (Rect.unit (s := S1x2x1024) ![0, 0, 256] S1x2x256.size inb_S1x2x1024_S1x2x256_0_0_256))
    (View.ld x1 (Rect.unit (s := S1024x1024) ![256, 0] S256x1024.size inb_S1024x1024_S256x1024_256_0))
def uh2 : FVec F S2x256x1024 .f32 :=
  votesV (View.ld x0 (Rect.unit (s := S1x2x1024) ![0, 0, 512] S1x2x256.size inb_S1x2x1024_S1x2x256_0_0_512))
    (View.ld x1 (Rect.unit (s := S1024x1024) ![512, 0] S256x1024.size inb_S1024x1024_S256x1024_512_0))
def uh3 : FVec F S2x256x1024 .f32 :=
  votesV (View.ld x0 (Rect.unit (s := S1x2x1024) ![0, 0, 768] S1x2x256.size inb_S1x2x1024_S1x2x256_0_0_768))
    (View.ld x1 (Rect.unit (s := S1024x1024) ![768, 0] S256x1024.size inb_S1024x1024_S256x1024_768_0))

/-- The zero logits of chunk 0 … 3: the whole-array store of zeros read through the chunk. -/
def z0 : Vec F S2x256x1024 .f32 := View.ld (k0_pay6 (F := F)) (Rect.unit (s := S2x1024x1024) ![0, 0, 0] S2x256x1024.size inb_S2x1024x1024_S2x256x1024_0_0_0)
def z1 : Vec F S2x256x1024 .f32 := View.ld (k0_pay6 (F := F)) (Rect.unit (s := S2x1024x1024) ![0, 256, 0] S2x256x1024.size inb_S2x1024x1024_S2x256x1024_0_256_0)
def z2 : Vec F S2x256x1024 .f32 := View.ld (k0_pay6 (F := F)) (Rect.unit (s := S2x1024x1024) ![0, 512, 0] S2x256x1024.size inb_S2x1024x1024_S2x256x1024_0_512_0)
def z3 : Vec F S2x256x1024 .f32 := View.ld (k0_pay6 (F := F)) (Rect.unit (s := S2x1024x1024) ![0, 768, 0] S2x256x1024.size inb_S2x1024x1024_S2x256x1024_0_768_0)

/-- One round: the four chunks' weighted votes added in order from zero, plus the bias, squashed. -/
def round (b0 b1 b2 b3 : Vec F S2x256x1024 .f32) : FVec F S2x1024 .f32 :=
  squashV (addf (addf (addf (addf (addf (broadcast S2x1024 (Scalar.ofBits .f32 0x00000000#32))
    (chunkVote b0 (uh0 x0 x1))) (chunkVote b1 (uh1 x0 x1))) (chunkVote b2 (uh2 x0 x1))) (chunkVote b3 (uh3 x0 x1)))
    (biasRows x2))

/-- The first round's squashed rows, over zero logits. -/
def r1 : FVec F S2x1024 .f32 := round x0 x1 x2 z0 z1 z2 z3
/-- The logits after the first round, chunk by chunk. -/
def l1_0 : FVec F S2x256x1024 .f32 := updateV (r1 x0 x1 x2) (uh0 x0 x1) z0
def l1_1 : FVec F S2x256x1024 .f32 := updateV (r1 x0 x1 x2) (uh1 x0 x1) z1
def l1_2 : FVec F S2x256x1024 .f32 := updateV (r1 x0 x1 x2) (uh2 x0 x1) z2
def l1_3 : FVec F S2x256x1024 .f32 := updateV (r1 x0 x1 x2) (uh3 x0 x1) z3
/-- The second round. -/
def r2 : FVec F S2x1024 .f32 := round x0 x1 x2 (l1_0 x0 x1 x2) (l1_1 x0 x1 x2) (l1_2 x0 x1 x2) (l1_3 x0 x1 x2)
/-- The logits after the second round. -/
def l2_0 : FVec F S2x256x1024 .f32 := updateV (r2 x0 x1 x2) (uh0 x0 x1) (l1_0 x0 x1 x2)
def l2_1 : FVec F S2x256x1024 .f32 := updateV (r2 x0 x1 x2) (uh1 x0 x1) (l1_1 x0 x1 x2)
def l2_2 : FVec F S2x256x1024 .f32 := updateV (r2 x0 x1 x2) (uh2 x0 x1) (l1_2 x0 x1 x2)
def l2_3 : FVec F S2x256x1024 .f32 := updateV (r2 x0 x1 x2) (uh3 x0 x1) (l1_3 x0 x1 x2)
/-- The third round, stored as the [1, 2, 1024] output block. -/
def block : FVec F S1x2x1024 .f32 :=
  shapeCast S1x2x1024 (round x0 x1 x2 (l2_0 x0 x1 x2) (l2_1 x0 x1 x2) (l2_2 x0 x1 x2) (l2_3 x0 x1 x2)) shapeCasts_S2x1024_S1x2x1024

end

/-- What the body leaves in the output's staging buffer is that function of the three input blocks. -/
theorem out_eq_block (c : Dev nD) (i : grid0.Coords) (arg1 : Memref sig .tc .vmem S1x2x1024 .f32) (harg1 : arg1.IsWhole) (arg2 : Memref sig .tc .vmem S1024x1024 .f32) (harg2 : arg2.IsWhole) (arg3 : Memref sig .tc .vmem S1024 .f32) (harg3 : arg3.IsWhole) (arg4 : Memref sig .tc .vmem S1x2x1024 .f32) (harg4 : arg4.IsWhole) (arg5 : Memref sig .tc .vmem S2x1024x1024 .f32) (harg5 : arg5.IsWhole) (arg6 : Memref sig .tc .vmem S2x1024x1024 .f32) (harg6 : arg6.IsWhole)
    (x0 : Vec F S1x2x1024 .f32) (x1 : Vec F S1024x1024 .f32) (x2 : Vec F S1024 .f32) :
    out0_A_3 (F := F) c i arg1 harg1 arg2 harg2 arg3 harg3 arg4 harg4 arg5 harg5 arg6 harg6 x0 x1 x2 = block x0 x1 x2 := by
  unfold out0_A_3
  rw [View.read_writes_eq_canon _ _ _ (cover0_A_3 c i arg1 harg1 arg2 harg2 arg3 harg3 arg4 harg4 arg5 harg5 arg6 harg6 x0 x1 x2)]
  unfold kernelRun0_A
  dsimp only
  sl_unfold_words
  rw [View.canon_unit_zero hz3]
  simp only [readCov_same, skip_0_256, skip_0_512, skip_0_768, skip_256_0, skip_256_512, skip_256_768, skip_512_0, skip_512_256, skip_512_768, skip_768_0, skip_768_256, skip_768_512, readCov_whole,
    View.readAt_eq_ld, harg1.read_unread, harg2.read_unread, harg3.read_unread, View.ld_unit_zero (S := S1024) hz1]
  rfl

end Cert.KernelIdeal.Block

end
-- ==== Proof.BlockRows.lean ====
/-
  The block the kernel writes, read at (row, lane): the routing of that batch row.

  Row r of the block depends on row r of the loaded block of u, on all of w and on the bias. Chunk k holds capsules
  256·k … 256·k + 255, so a chunk's votes and logits at (r, j, o) are the row's votes and logits at capsule 256·k + j,
  and the four chunk sums added in order are the sum over all 1024 capsules. Zero logits give the uniform
  coefficients of the first round.
-/
import proofs.«110863_j61160334295610_2_alg».proof.Proof.BlockFn

noncomputable section

namespace Cert.KernelIdeal.Block

open Idealize.ShloMosaic Idealize.ShloMosaic.ValueIdx
open Cert.KernelIdeal Cert.KernelIdeal.Gen Cert.KernelIdeal.Rows Cert.Routing

/-- Row r of a loaded block of u, the matrix w, and the bias, as plain functions. -/
def rowU (x0 : Vec Ideal S1x2x1024 .f32) (r : Fin 2) : Fin 1024 → EReal := fun i => x0 (ix3 (0 : Fin 1) r i)
def matW (x1 : Vec Ideal S1024x1024 .f32) : Fin 1024 → Fin 1024 → EReal := fun i o => x1 (ix2 i o)
def vecB (x2 : Vec Ideal S1024 .f32) : Fin 1024 → EReal := fun o => x2 (ix1 o)

variable (x0 : Vec Ideal S1x2x1024 .f32) (x1 : Vec Ideal S1024x1024 .f32) (x2 : Vec Ideal S1024 .f32)

/-- The whole-array store of zeros is zero everywhere. -/
theorem pay6_apply (y : S2x1024x1024.Idx) : k0_pay6 (F := Ideal) y = 0 := by
  unfold k0_pay6
  rw [shapeCast_self]
  exact Ideal.ofBits_zero_f32

theorem z0_apply (r : Fin 2) (j : Fin 256) (o : Fin 1024) : z0 (F := Ideal) (ix3 r j o) = 0 := by
  unfold z0
  exact pay6_apply _

theorem z1_apply (r : Fin 2) (j : Fin 256) (o : Fin 1024) : z1 (F := Ideal) (ix3 r j o) = 0 := by
  unfold z1
  exact pay6_apply _

theorem z2_apply (r : Fin 2) (j : Fin 256) (o : Fin 1024) : z2 (F := Ideal) (ix3 r j o) = 0 := by
  unfold z2
  exact pay6_apply _

theorem z3_apply (r : Fin 2) (j : Fin 256) (o : Fin 1024) : z3 (F := Ideal) (ix3 r j o) = 0 := by
  unfold z3
  exact pay6_apply _

theorem uh0_apply (r : Fin 2) (j : Fin 256) (o : Fin 1024) :
    uh0 x0 x1 (ix3 r j o) = votes (rowU x0 r) (matW x1) ⟨j.val, by omega⟩ o := by
  unfold uh0 votes rowU matW
  rw [votesV_apply]
  refine congrArg₂ (· * ·) (congrArg x0 ?_) (congrArg x1 ?_)
  · exact funext fun a => Fin.ext (by
      match a with
      | ⟨0, _⟩ => rfl
      | ⟨1, _⟩ => show 0 + 1 * r.val = r.val; omega
      | ⟨2, _⟩ => show 0 + 1 * j.val = j.val; omega)
  · exact funext fun a => Fin.ext (by
      match a with
      | ⟨0, _⟩ => show 0 + 1 * j.val = j.val; omega
      | ⟨1, _⟩ => show 0 + 1 * o.val = o.val; omega)

theorem uh1_apply (r : Fin 2) (j : Fin 256) (o : Fin 1024) :
    uh1 x0 x1 (ix3 r j o) = votes (rowU x0 r) (matW x1) ⟨256 + j.val, by omega⟩ o := by
  unfold uh1 votes rowU matW
  rw [votesV_apply]
  refine congrArg₂ (· * ·) (congrArg x0 ?_) (congrArg x1 ?_)
  · exact funext fun a => Fin.ext (by
      match a with
      | ⟨0, _⟩ => rfl
      | ⟨1, _⟩ => show 0 + 1 * r.val = r.val; omega
      | ⟨2, _⟩ => show 256 + 1 * j.val = 256 + j.val; omega)
  · exact funext fun a => Fin.ext (by
      match a with
      | ⟨0, _⟩ => show 256 + 1 * j.val = 256 + j.val; omega
      | ⟨1, _⟩ => show 0 + 1 * o.val = o.val; omega)

theorem uh2_apply (r : Fin 2) (j : Fin 256) (o : Fin 1024) :
    uh2 x0 x1 (ix3 r j o) = votes (rowU x0 r) (matW x1) ⟨512 + j.val, by omega⟩ o := by
  unfold uh2 votes rowU matW
  rw [votesV_apply]
  refine congrArg₂ (· * ·) (congrArg x0 ?_) (congrArg x1 ?_)
  · exact funext fun a => Fin.ext (by
      match a with
      | ⟨0, _⟩ => rfl
      | ⟨1, _⟩ => show 0 + 1 * r.val = r.val; omega
      | ⟨2, _⟩ => show 512 + 1 * j.val = 512 + j.val; omega)
  · exact funext fun a => Fin.ext (by
      match a with
      | ⟨0, _⟩ => show 512 + 1 * j.val = 512 + j.val; omega
      | ⟨1, _⟩ => show 0 + 1 * o.val = o.val; omega)

theorem uh3_apply (r : Fin 2) (j : Fin 256) (o : Fin 1024) :
    uh3 x0 x1 (ix3 r j o) = votes (rowU x0 r) (matW x1) ⟨768 + j.val, by omega⟩ o := by
  unfold uh3 votes rowU matW
  rw [votesV_apply]
  refine congrArg₂ (· * ·) (congrArg x0 ?_) (congrArg x1 ?_)
  · exact funext fun a => Fin.ext (by
      match a with
      | ⟨0, _⟩ => rfl
      | ⟨1, _⟩ => show 0 + 1 * r.val = r.val; omega
      | ⟨2, _⟩ => show 768 + 1 * j.val = 768 + j.val; omega)
  · exact funext fun a => Fin.ext (by
      match a with
      | ⟨0, _⟩ => show 768 + 1 * j.val = 768 + j.val; omega
      | ⟨1, _⟩ => show 0 + 1 * o.val = o.val; omega)

/-- One round at (r, o), for chunks of logits that are rows 256·k + j of one logit matrix B of the batch row:
    the squash of the vote over all 1024 capsules with the softmax of B's rows. -/
theorem round_apply (b0 b1 b2 b3 : Vec Ideal S2x256x1024 .f32) (r : Fin 2) (B : Fin 1024 → Fin 1024 → EReal)
    (h0 : ∀ (j : Fin 256) (o : Fin 1024), b0 (ix3 r j o) = B ⟨j.val, by omega⟩ o)
    (h1 : ∀ (j : Fin 256) (o : Fin 1024), b1 (ix3 r j o) = B ⟨256 + j.val, by omega⟩ o)
    (h2 : ∀ (j : Fin 256) (o : Fin 1024), b2 (ix3 r j o) = B ⟨512 + j.val, by omega⟩ o)
    (h3 : ∀ (j : Fin 256) (o : Fin 1024), b3 (ix3 r j o) = B ⟨768 + j.val, by omega⟩ o) (o : Fin 1024) :
    round x0 x1 x2 b0 b1 b2 b3 (ix2 r o)
      = squash (vote (votes (rowU x0 r) (matW x1)) (fun i => softmax (B i)) (vecB x2)) o := by
  unfold round
  rw [squashV_apply]
  refine congrArg (squash · o) (funext fun o' => ?_)
  show ((((Ideal.ofBits .f32 0x00000000#32 + chunkVote b0 (uh0 x0 x1) (ix2 r o')) + chunkVote b1 (uh1 x0 x1) (ix2 r o'))
    + chunkVote b2 (uh2 x0 x1) (ix2 r o')) + chunkVote b3 (uh3 x0 x1) (ix2 r o')) + biasRows x2 (ix2 r o') = _
  rw [chunkVote_apply, chunkVote_apply, chunkVote_apply, chunkVote_apply, biasRows_apply, Ideal.ofBits_zero_f32]
  unfold vote
  rw [sum_chunks]
  refine congrArg₂ (· + ·) (congrArg₂ (· + ·) (congrArg₂ (· + ·) (congrArg₂ (· + ·) (congrArg₂ (· + ·) rfl ?_) ?_) ?_) ?_) rfl
  · refine Finset.sum_congr rfl fun j _ => ?_
    rw [uh0_apply, funext (h0 j)]
  · refine Finset.sum_congr rfl fun j _ => ?_
    rw [uh1_apply, funext (h1 j)]
  · refine Finset.sum_congr rfl fun j _ => ?_
    rw [uh2_apply, funext (h2 j)]
  · refine Finset.sum_congr rfl fun j _ => ?_
    rw [uh3_apply, funext (h3 j)]

/-- The first round's squashed row. -/
theorem r1_apply (r : Fin 2) (o : Fin 1024) : r1 x0 x1 x2 (ix2 r o) = v1 (rowU x0 r) (matW x1) (vecB x2) o := by
  unfold r1 v1
  rw [round_apply x0 x1 x2 z0 z1 z2 z3 r (fun _ _ => 0) (fun j o => z0_apply r j o) (fun j o => z1_apply r j o)
    (fun j o => z2_apply r j o) (fun j o => z3_apply r j o) o]
  refine congrArg (squash · o) (congrArg (vote _ · _) (funext fun _ => funext fun o' => softmax_zero o'))

theorem l1_0_apply (r : Fin 2) (j : Fin 256) (o : Fin 1024) :
    l1_0 x0 x1 x2 (ix3 r j o) = b1 (rowU x0 r) (matW x1) (vecB x2) ⟨j.val, by omega⟩ o := by
  unfold l1_0 b1
  rw [updateV_apply, z0_apply, uh0_apply, r1_apply, zero_add]

theorem l1_1_apply (r : Fin 2) (j : Fin 256) (o : Fin 1024) :
    l1_1 x0 x1 x2 (ix3 r j o) = b1 (rowU x0 r) (matW x1) (vecB x2) ⟨256 + j.val, by omega⟩ o := by
  unfold l1_1 b1
  rw [updateV_apply, z1_apply, uh1_apply, r1_apply, zero_add]

theorem l1_2_apply (r : Fin 2) (j : Fin 256) (o : Fin 1024) :
    l1_2 x0 x1 x2 (ix3 r j o) = b1 (rowU x0 r) (matW x1) (vecB x2) ⟨512 + j.val, by omega⟩ o := by
  unfold l1_2 b1
  rw [updateV_apply, z2_apply, uh2_apply, r1_apply, zero_add]

theorem l1_3_apply (r : Fin 2) (j : Fin 256) (o : Fin 1024) :
    l1_3 x0 x1 x2 (ix3 r j o) = b1 (rowU x0 r) (matW x1) (vecB x2) ⟨768 + j.val, by omega⟩ o := by
  unfold l1_3 b1
  rw [updateV_apply, z3_apply, uh3_apply, r1_apply, zero_add]

/-- The second round's squashed row. -/
theorem r2_apply (r : Fin 2) (o : Fin 1024) : r2 x0 x1 x2 (ix2 r o) = v2 (rowU x0 r) (matW x1) (vecB x2) o := by
  unfold r2 v2
  exact round_apply x0 x1 x2 _ _ _ _ r (b1 (rowU x0 r) (matW x1) (vecB x2))
    (fun j o => l1_0_apply x0 x1 x2 r j o)
    (fun j o => l1_1_apply x0 x1 x2 r j o) (fun j o => l1_2_apply x0 x1 x2 r j o) (fun j o => l1_3_apply x0 x1 x2 r j o) o

theorem l2_0_apply (r : Fin 2) (j : Fin 256) (o : Fin 1024) :
    l2_0 x0 x1 x2 (ix3 r j o) = b2 (rowU x0 r) (matW x1) (vecB x2) ⟨j.val, by omega⟩ o := by
  unfold l2_0 b2
  rw [updateV_apply, l1_0_apply, uh0_apply, r2_apply]

theorem l2_1_apply (r : Fin 2) (j : Fin 256) (o : Fin 1024) :
    l2_1 x0 x1 x2 (ix3 r j o) = b2 (rowU x0 r) (matW x1) (vecB x2) ⟨256 + j.val, by omega⟩ o := by
  unfold l2_1 b2
  rw [updateV_apply, l1_1_apply, uh1_apply, r2_apply]

theorem l2_2_apply (r : Fin 2) (j : Fin 256) (o : Fin 1024) :
    l2_2 x0 x1 x2 (ix3 r j o) = b2 (rowU x0 r) (matW x1) (vecB x2) ⟨512 + j.val, by omega⟩ o := by
  unfold l2_2 b2
  rw [updateV_apply, l1_2_apply, uh2_apply, r2_apply]

theorem l2_3_apply (r : Fin 2) (j : Fin 256) (o : Fin 1024) :
    l2_3 x0 x1 x2 (ix3 r j o) = b2 (rowU x0 r) (matW x1) (vecB x2) ⟨768 + j.val, by omega⟩ o := by
  unfold l2_3 b2
  rw [updateV_apply, l1_3_apply, uh3_apply, r2_apply]

/-- The block at (0, r, o) is the routing of row r. -/
theorem block_apply (r : Fin 2) (o : Fin 1024) :
    block x0 x1 x2 (ix3 (0 : Fin 1) r o) = route (rowU x0 r) (matW x1) (vecB x2) o := by
  unfold block route
  refine (shapeCast_apply _ shapeCasts_S2x1024_S1x2x1024 (ix3 (0 : Fin 1) r o) (ix2 r o) ?_).trans ?_
  · rw [Shape.rowMajor_val_two, Shape.rowMajor_val_three]
    show r.val * 1024 + o.val = (0 * 2 + r.val) * 1024 + o.val
    omega
  exact round_apply x0 x1 x2 _ _ _ _ r (b2 (rowU x0 r) (matW x1) (vecB x2))
    (fun j o => l2_0_apply x0 x1 x2 r j o)
    (fun j o => l2_1_apply x0 x1 x2 r j o) (fun j o => l2_2_apply x0 x1 x2 r j o) (fun j o => l2_3_apply x0 x1 x2 r j o) o

end Cert.KernelIdeal.Block

end
-- ==== Proof.KernelValue.lean ====
/-
  The kernel's result array as one function of the argument arrays.

  The kernel runs over 32 grid points. Point t loads rows 2t and 2t + 1 of u — block t of u viewed [32, 2, 1024] —
  with all of w and the bias, and writes block t of the [32, 2, 1024] output; the blocks tile the output. So the
  output at (t, r, o) is the routing of row 2t + r of u, and the result, the output viewed [64, 1024], holds at (b, o)
  the routing of row b.
-/
import proofs.«110863_j61160334295610_2_alg».proof.Proof.Gen.KernelIdeal.Frame
import proofs.«110863_j61160334295610_2_alg».proof.Proof.BlockRows
import Idealize.ShloMosaic.Lib.Pipeline.Value
import Idealize.ShloMosaic.Lib.StableHlo.Run
import Idealize.ShloMosaic.Lib.Tactic

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Block Cert.Routing

variable (m : (ℓ : Loc nD τ sig) → Buf (Elt Ideal) ℓ) (ρ : Dev nD → PrngReg)

/-- The argument arrays as plain functions: row b of u, the matrix w, the bias. -/
def argU (c : Dev nD) (b : Fin 64) : Fin 1024 → EReal := fun i => m ((c : Thread nD τ).loc main_arg0) (ix2 b i)
def argW (c : Dev nD) : Fin 1024 → Fin 1024 → EReal := fun i o => m ((c : Thread nD τ).loc main_arg1) (ix2 i o)
def argB (c : Dev nD) : Fin 1024 → EReal := fun o => m ((c : Thread nD τ).loc main_arg2) (ix1 o)

/-- The routing of batch row 2q + r at lane o. -/
def routed (c : Dev nD) (q : Fin 32) (r : Fin 2) (o : Fin 1024) : EReal :=
  route (argU m c ⟨2 * q.val + r.val, by omega⟩) (argW m c) (argB m c) o

/-- The [32, 2, 1024] output array: at (q, r, o) the routing of row 2q + r. -/
def outArr (c : Dev nD) : Buf (Elt Ideal) ((c : Thread nD τ).loc main_v1) := fun y =>
  routed m c ⟨(y 0).val, (y 0).isLt⟩ ⟨(y 1).val, (y 1).isLt⟩ ⟨(y 2).val, (y 2).isLt⟩

/-- u as the region finds it: the host's reshape to [32, 2, 1024]. -/
theorem V_v0 (c : Dev nD) :
    (V m c main_v0 : S32x2x1024.Idx → EReal) = shapeCast S32x2x1024 (m ((c : Thread nD τ).loc main_arg0)) shapeCasts_S64x1024_S32x2x1024 := by
  show StableHlo.after hostOps0 (fun b => m (c, b)) (Proc.devRef .tc main_v0) = _
  after_results
  rfl

theorem V_v0_apply (c : Dev nD) (q : Fin 32) (r : Fin 2) (i : Fin 1024) :
    (V m c main_v0 : S32x2x1024.Idx → EReal) (ix3 q r i) = argU m c ⟨2 * q.val + r.val, by omega⟩ i := by
  rw [V_v0]
  unfold argU
  refine shapeCast_apply _ shapeCasts_S64x1024_S32x2x1024 (ix3 q r i) (ix2 ⟨2 * q.val + r.val, by omega⟩ i) ?_
  rw [Shape.rowMajor_val_two, Shape.rowMajor_val_three]
  show (2 * q.val + r.val) * 1024 + i.val = (q.val * 2 + r.val) * 1024 + i.val
  omega

/-- The printed index maps over the grid: point t reads block t of u, the whole of w and of the bias, and writes
    block t of the output. -/
theorem idx_facts : ∀ t : Fin cfg0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ win0_2.index t (0 : Fin 1) = 0 ∧ win0_3.index t (0 : Fin 3) = t.val ∧ win0_3.index t (1 : Fin 3) = 0
    ∧ win0_3.index t (2 : Fin 3) = 0 :=
  (by decide +kernel : ∀ t : Fin grid0.N, _)

theorem lt_N {n : ℕ} (h : n < 32) : n < cfg0.N := by
  have e : cfg0.N = 32 := N_0
  omega

theorem t_lt (t : Fin cfg0.N) : t.val < 32 := by
  have h := t.isLt
  have e : cfg0.N = 32 := N_0
  omega

/-- What point t writes back is block t of the output function. -/
theorem flushed_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3]
  unfold outsAt0
  rw [out_eq_block]
  obtain ⟨e00, e01, e02, e10, e11, e20, e30, e31, e32⟩ := idx_facts t
  funext y
  obtain ⟨u, r, o, rfl⟩ : ∃ (u : Fin 1) (r : Fin 2) (o : Fin 1024), y = ix3 u r o := ⟨y 0, y 1, y 2, eq_ix3 y⟩
  obtain rfl : u = 0 := Subsingleton.elim _ _
  refine (block_apply (iblk m c 0 t) (iblk m c 1 t) (iblk m c 2 t) r o).trans ?_
  show _ = outArr m c (((cfg0.win 3).blk t).view.emb (ix3 (0 : Fin 1) r o))
  have h3 : ((cfg0.win 3).blk t).view.emb (ix3 (0 : Fin 1) r o) = ix3 (⟨t.val, t_lt t⟩ : Fin 32) r o := by
    funext a; apply Fin.ext
    match a with
    | ⟨0, _⟩ => show win0_3.index t (0 : Fin 3) * 1 + 1 * 0 = t.val; omega
    | ⟨1, _⟩ => show win0_3.index t (1 : Fin 3) * 2 + 1 * r.val = r.val; omega
    | ⟨2, _⟩ => show win0_3.index t (2 : Fin 3) * 1024 + 1 * o.val = o.val; omega
  rw [h3]
  show _ = routed m c ⟨t.val, t_lt t⟩ r o
  unfold routed
  have hu : rowU (iblk m c 0 t) r = argU m c ⟨2 * t.val + r.val, by have := t_lt t; omega⟩ := by
    funext i
    show V m c main_v0 (((cfg0.win 0).blk t).view.emb (ix3 (0 : Fin 1) r i)) = _
    have h0 : ((cfg0.win 0).blk t).view.emb (ix3 (0 : Fin 1) r i) = ix3 (⟨t.val, t_lt t⟩ : Fin 32) r i := by
      funext a; apply Fin.ext
      match a with
      | ⟨0, _⟩ => show win0_0.index t (0 : Fin 3) * 1 + 1 * 0 = t.val; omega
      | ⟨1, _⟩ => show win0_0.index t (1 : Fin 3) * 2 + 1 * r.val = r.val; omega
      | ⟨2, _⟩ => show win0_0.index t (2 : Fin 3) * 1024 + 1 * i.val = i.val; omega
    rw [h0]
    exact V_v0_apply m c ⟨t.val, t_lt t⟩ r i
  have hw : matW (iblk m c 1 t) = argW m c := by
    funext i o
    show V m c main_arg1 (((cfg0.win 1).blk t).view.emb (ix2 i o)) = _
    have h1 : ((cfg0.win 1).blk t).view.emb (ix2 i o) = ix2 i o := by
      funext a; apply Fin.ext
      match a with
      | ⟨0, _⟩ => show win0_1.index t (0 : Fin 2) * 1024 + 1 * i.val = i.val; omega
      | ⟨1, _⟩ => show win0_1.index t (1 : Fin 2) * 1024 + 1 * o.val = o.val; omega
    rw [h1, V_main_arg1]
    rfl
  have hb : vecB (iblk m c 2 t) = argB m c := by
    funext o'
    show V m c main_arg2 (((cfg0.win 2).blk t).view.emb (ix1 o')) = _
    have h2 : ((cfg0.win 2).blk t).view.emb (ix1 o') = ix1 o' := by
      funext a; apply Fin.ext
      match a with
      | ⟨0, _⟩ => show win0_2.index t (0 : Fin 1) * 1024 + 1 * o'.val = o'.val; omega
    rw [h2, V_main_arg2]
    rfl
  rw [hu, hw, hb]

/-- An index of the output is in point t's block iff each coordinate is in the block's range. -/
theorem mem_blk (t : Fin cfg0.N) (i : S32x2x1024.Idx) :
    i ∈ ((cfg0.win 3).blk t).view.set ↔ ∀ a : Fin 3, win0_3.index t a * S1x2x1024.size a ≤ (i a).val
      ∧ (i a).val < win0_3.index t a * S1x2x1024.size a + S1x2x1024.size a := by
  show i ∈ ((View.whole main_v1).slice (win0_3.rect t)).set ↔ _
  rw [View.set_slice_whole, Rect.mem_set_unit]
  exact Iff.rfl

/-- The output array after the run is the output function: the 32 blocks tile it. -/
theorem final (c : Dev nD) : (dats m 0 c).arrAt 3 cfg0.N = outArr m c :=
  (dats m 0 c).arrAt_eq_of_cover 3 (outArr m c) (fun t _ => flushed_eq m c t) fun i => by
    have h0 : (i 0).val < 32 := (i 0).isLt
    have h1 : (i 1).val < 2 := (i 1).isLt
    have h2 : (i 2).val < 1024 := (i 2).isLt
    refine ⟨⟨(i 0).val, lt_N h0⟩, flush0_3 _, ?_⟩
    rw [mem_blk]
    obtain ⟨-, -, -, -, -, -, e30, e31, e32⟩ := idx_facts ⟨(i 0).val, lt_N h0⟩
    have e30' : win0_3.index ⟨(i 0).val, lt_N h0⟩ (0 : Fin 3) = (i 0).val := e30
    intro a
    match a with
    | ⟨0, _⟩ => show win0_3.index _ (0 : Fin 3) * 1 ≤ (i 0).val ∧ (i 0).val < win0_3.index _ (0 : Fin 3) * 1 + 1; rw [e30']; omega
    | ⟨1, _⟩ => show win0_3.index _ (1 : Fin 3) * 2 ≤ (i 1).val ∧ (i 1).val < win0_3.index _ (1 : Fin 3) * 2 + 2; rw [e31]; omega
    | ⟨2, _⟩ => show win0_3.index _ (2 : Fin 3) * 1024 ≤ (i 2).val ∧ (i 2).val < win0_3.index _ (2 : Fin 3) * 1024 + 1024; rw [e32]; omega

/-- The result: the output array viewed [64, 1024]. -/
def result (c : Dev nD) : Buf (Elt Ideal) ((c : Thread nD τ).loc main_v2) :=
  shapeCast S64x1024 (outArr m c) shapeCasts_S32x2x1024_S64x1024

/-- The host's reshape after the region gives the result. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  unfold result
  rw [(Pipeline.withArrays_arr spec0 launch0.win.arr_inj c _ _ 3).trans (final m c)]
  rfl

/-- The result at (b, o) is the routing of row b. -/
theorem result_apply (c : Dev nD) (b : Fin 64) (o : Fin 1024) :
    (result m c : S64x1024.Idx → EReal) (ix2 b o) = route (argU m c b) (argW m c) (argB m c) o := by
  unfold result
  refine (shapeCast_apply _ shapeCasts_S32x2x1024_S64x1024 (ix2 b o)
    (ix3 (⟨b.val / 2, by omega⟩ : Fin 32) (⟨b.val % 2, by omega⟩ : Fin 2) o) ?_).trans ?_
  · rw [Shape.rowMajor_val_two, Shape.rowMajor_val_three]
    show (b.val / 2 * 2 + b.val % 2) * 1024 + o.val = b.val * 1024 + o.val
    omega
  show routed m c ⟨b.val / 2, _⟩ ⟨b.val % 2, _⟩ o = _
  unfold routed
  refine congrArg (fun x => route (argU m c x) (argW m c) (argB m c) o) (Fin.ext ?_)
  show 2 * (b.val / 2) + b.val % 2 = b.val
  omega

/-- The run, read: the result array at the result function, the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c)))⟩)
    (run_main m ρ)

end Cert.KernelIdeal.Whole

end
-- ==== Proof.HostOps.lean ====
/-
  The reference's array operations on the whole batch, read at an index.

  The reference keeps the 64 batch rows in one array: votes and logits are [64, 1024, 1024] (row, capsule, lane),
  squashed rows [64, 1024]. Its softmax runs along the lanes, its weighted vote sums over the capsules, and its
  squash takes the length as √(∑ x²) and squares it back; since ∑ x² ≥ 0 that square is ∑ x² itself, so the squash
  is the one of Routing.lean. Each stage is stated once over arrays and read at (row, capsule, lane).
-/
import proofs.«110863_j61160334295610_2_alg».proof.Proof.Gen.ReferenceIdeal
import proofs.«110863_j61160334295610_2_alg».proof.Proof.Routing
import Idealize.ShloMosaic.Lib.ValueIdx
import Idealize.ShloMosaic.Lib.Pipeline.Value
import Idealize.ShloMosaic.PureOps.Ideal.Laws

noncomputable section

namespace Cert.ReferenceIdeal.Rows

open Idealize.ShloMosaic Idealize.ShloMosaic.ValueIdx Cert.ReferenceIdeal Cert.ReferenceIdeal.Facts₀ Cert.ReferenceIdeal.Facts Cert.Routing

variable {F : FTy → Type} [FloatOps F]

/-- The [64, 1024, 1024] and [64, 1024] arrays of floats. -/
abbrev Arr3 (F : FTy → Type) : Type := (⟨S64x1024x1024, .f32⟩ : BufTy).Contents (Elt F)
abbrev Arr2 (F : FTy → Type) : Type := (⟨S64x1024, .f32⟩ : BufTy).Contents (Elt F)

/-! ## The stages, at any float instance -/

/-- A [64, 1024] array (row, capsule) laid along the 1024 lanes. -/
def lanes (v : Arr2 F) : Arr3 F :=
  broadcastInDim S64x1024x1024 ![0, 1, 2] bcast_S64x1024x1_S64x1024x1024_0_1_2
    (broadcastInDim S64x1024x1 ![0, 1] bcast_S64x1024_S64x1024x1_0_1 v)

/-- A [64, 1024] array (row, lane) laid along the 1024 capsules. -/
def capsules (v : Arr2 F) : Arr3 F :=
  broadcastInDim S64x1024x1024 ![0, 1, 2] bcast_S64x1x1024_S64x1024x1024_0_1_2
    (broadcastInDim S64x1x1024 ![0, 2] bcast_S64x1024_S64x1x1024_0_2 v)

/-- The votes u (row, capsule) · w (capsule, lane). -/
def votesA (x0 : (⟨S64x1024, .f32⟩ : BufTy).Contents (Elt F)) (x1 : (⟨S1024x1024, .f32⟩ : BufTy).Contents (Elt F)) : Arr3 F :=
  mulf (lanes x0)
    (broadcastInDim S64x1024x1024 ![0, 1, 2] bcast_S1x1024x1024_S64x1024x1024_0_1_2
      (broadcastInDim S1x1024x1024 ![1, 2] bcast_S1024x1024_S1x1024x1024_1_2 x1))

/-- The uniform coefficients 2⁻¹⁰ and the zero logits. -/
def uniformA : Arr3 F :=
  broadcastInDim S64x1024x1024 ![0, 1, 2] bcast_S1x1x1024_S64x1024x1024_0_1_2
    (broadcastInDim S1x1x1024 ![] bcast_S_S1x1x1024 (constant S_ .f32 0x3A800000#32))
def zeroA : Arr3 F := broadcastInDim S64x1024x1024 ![] bcast_S_S64x1024x1024 (constant S_ .f32 0x00000000#32)

/-- The bias laid along the rows. -/
def biasA (x2 : (⟨S1024, .f32⟩ : BufTy).Contents (Elt F)) : Arr2 F :=
  broadcastInDim S64x1024 ![0, 1] bcast_S1x1024_S64x1024_0_1 (broadcastInDim S1x1024 ![1] bcast_S1024_S1x1024_1 x2)

/-- The weighted vote: the votes times the coefficients summed over the capsules, plus the bias. -/
def voteA (uh c : Arr3 F) (x2 : (⟨S1024, .f32⟩ : BufTy).Contents (Elt F)) : Arr2 F :=
  addf (Host.reduceAdd (mulf uh c) (constant S_ .f32 0x00000000#32) reducesTo_S64x1024x1024_S64x1024_d1 h_S_) (biasA x2)

/-- A row's length as a [64, 1] column: √(0 + ∑ x²). -/
def normA (x : Arr2 F) : (⟨S64x1, .f32⟩ : BufTy).Contents (Elt F) :=
  Host.sqrt (broadcastInDim S64x1 ![0] bcast_S64_S64x1_0
    (Host.reduceAdd (mulf x x) (constant S_ .f32 0x00000000#32) reducesTo_S64x1024_S64_d1 h_S_))

/-- The squash with the squared length taken as length · length. -/
def squashA (x : Arr2 F) : Arr2 F :=
  Host.divf
    (mulf (broadcastInDim S64x1024 ![0, 1] bcast_S64x1_S64x1024_0_1
      (Host.divf (mulf (normA x) (normA x))
        (addf (broadcastInDim S64x1 ![] bcast_S_S64x1 (constant S_ .f32 0x3F800000#32)) (mulf (normA x) (normA x))))) x)
    (broadcastInDim S64x1024 ![0, 1] bcast_S64x1_S64x1024_0_1
      (addf (normA x) (broadcastInDim S64x1 ![] bcast_S_S64x1 (constant S_ .f32 0x3727C5AC#32))))

/-- The logits' update b + uh · v. -/
def updateA (b uh : Arr3 F) (v : Arr2 F) : Arr3 F := addf b (mulf uh (capsules v))

/-- The maximum along the lanes, from -∞, met once more with -∞. -/
def rowMaxA (z : Arr3 F) : Arr2 F :=
  maximumf (broadcastInDim S64x1024 ![] bcast_S_S64x1024 (constant S_ .f32 0xFF800000#32))
    (Host.reduce FloatOps.maximumf z (constant S_ .f32 0xFF800000#32) reducesTo_S64x1024x1024_S64x1024_d2 h_S_)

def expShiftA (z : Arr3 F) : Arr3 F := Host.exp (subf z (lanes (rowMaxA z)))

/-- The softmax along the lanes. -/
def softmaxA (z : Arr3 F) : Arr3 F :=
  Host.divf (expShiftA z)
    (lanes (Host.reduceAdd (expShiftA z) (constant S_ .f32 0x00000000#32) reducesTo_S64x1024x1024_S64x1024_d2 h_S_))

/-! ## Read at an index, on the extended reals -/

theorem lanes_apply (v : Arr2 Ideal) (b : Fin 64) (i o : Fin 1024) : lanes v (ix3 b i o) = v (ix2 b i) := by
  unfold lanes
  refine (broadcastInDim_apply _ bcast_S64x1024x1_S64x1024x1024_0_1_2 _ (ix3 b i o) (ix3 b i (0 : Fin 1))
    (fun a => match a with | ⟨0, _⟩ => rfl | ⟨1, _⟩ => rfl | ⟨2, _⟩ => rfl)).trans ?_
  exact broadcastInDim_apply _ bcast_S64x1024_S64x1024x1_0_1 _ (ix3 b i (0 : Fin 1)) (ix2 b i)
    (fun a => match a with | ⟨0, _⟩ => rfl | ⟨1, _⟩ => rfl)

theorem capsules_apply (v : Arr2 Ideal) (b : Fin 64) (i o : Fin 1024) : capsules v (ix3 b i o) = v (ix2 b o) := by
  unfold capsules
  refine (broadcastInDim_apply _ bcast_S64x1x1024_S64x1024x1024_0_1_2 _ (ix3 b i o) (ix3 b (0 : Fin 1) o)
    (fun a => match a with | ⟨0, _⟩ => rfl | ⟨1, _⟩ => rfl | ⟨2, _⟩ => rfl)).trans ?_
  exact broadcastInDim_apply _ bcast_S64x1024_S64x1x1024_0_2 _ (ix3 b (0 : Fin 1) o) (ix2 b o)
    (fun a => match a with | ⟨0, _⟩ => rfl | ⟨1, _⟩ => rfl)

theorem votesA_apply (x0 : (⟨S64x1024, .f32⟩ : BufTy).Contents (Elt Ideal)) (x1 : (⟨S1024x1024, .f32⟩ : BufTy).Contents (Elt Ideal))
    (b : Fin 64) (i o : Fin 1024) : votesA x0 x1 (ix3 b i o) = x0 (ix2 b i) * x1 (ix2 i o) := by
  unfold votesA
  show lanes x0 (ix3 b i o) * _ = _
  rw [lanes_apply]
  refine congrArg (x0 (ix2 b i) * ·) ?_
  refine (broadcastInDim_apply _ bcast_S1x1024x1024_S64x1024x1024_0_1_2 _ (ix3 b i o) (ix3 (0 : Fin 1) i o)
    (fun a => match a with | ⟨0, _⟩ => rfl | ⟨1, _⟩ => rfl | ⟨2, _⟩ => rfl)).trans ?_
  exact broadcastInDim_apply _ bcast_S1024x1024_S1x1024x1024_1_2 _ (ix3 (0 : Fin 1) i o) (ix2 i o)
    (fun a => match a with | ⟨0, _⟩ => rfl | ⟨1, _⟩ => rfl)

theorem uniformA_apply (y : S64x1024x1024.Idx) : uniformA (F := Ideal) y = uniform := rfl
theorem zeroA_apply (y : S64x1024x1024.Idx) : zeroA (F := Ideal) y = 0 := Ideal.ofBits_zero_f32

theorem biasA_apply (x2 : (⟨S1024, .f32⟩ : BufTy).Contents (Elt Ideal)) (b : Fin 64) (o : Fin 1024) :
    biasA x2 (ix2 b o) = x2 (ix1 o) := by
  unfold biasA
  refine (broadcastInDim_apply _ bcast_S1x1024_S64x1024_0_1 _ (ix2 b o) (ix2 (0 : Fin 1) o)
    (fun a => match a with | ⟨0, _⟩ => rfl | ⟨1, _⟩ => rfl)).trans ?_
  exact broadcastInDim_apply _ bcast_S1024_S1x1024_1 _ (ix2 (0 : Fin 1) o) (ix1 o)
    (fun a => match a with | ⟨0, _⟩ => rfl)

/-- The host's sum over the capsules of a [64, 1024, 1024] array from a zero start. -/
theorem sumCapsules_apply (x : Arr3 Ideal) (b : Fin 64) (o : Fin 1024) :
    Host.reduceAdd x (constant (F := Ideal) S_ .f32 0x00000000#32) reducesTo_S64x1024x1024_S64x1024_d1 h_S_ (ix2 b o)
      = ∑ i : Fin 1024, x (ix3 b i o) := by
  simp only [Host.reduceAdd, Ideal.hostReduceAdd_def]
  rw [Ideal.hostReduceAdd_single reducesTo_S64x1024x1024_S64x1024_d1 (by decide)]
  show Ideal.ofBits .f32 0x00000000#32 + _ = _
  rw [Ideal.ofBits_zero_f32, zero_add]
  refine Finset.sum_congr rfl fun i _ => congrArg x ?_
  exact funext fun a => Fin.ext (by match a with | ⟨0, _⟩ => rfl | ⟨1, _⟩ => rfl | ⟨2, _⟩ => rfl)

/-- The host's sum along the lanes of a [64, 1024, 1024] array from a zero start. -/
theorem sumLanes_apply (x : Arr3 Ideal) (b : Fin 64) (i : Fin 1024) :
    Host.reduceAdd x (constant (F := Ideal) S_ .f32 0x00000000#32) reducesTo_S64x1024x1024_S64x1024_d2 h_S_ (ix2 b i)
      = ∑ o : Fin 1024, x (ix3 b i o) := by
  simp only [Host.reduceAdd, Ideal.hostReduceAdd_def]
  rw [Ideal.hostReduceAdd_single reducesTo_S64x1024x1024_S64x1024_d2 (by decide)]
  show Ideal.ofBits .f32 0x00000000#32 + _ = _
  rw [Ideal.ofBits_zero_f32, zero_add]
  refine Finset.sum_congr rfl fun o _ => congrArg x ?_
  exact funext fun a => Fin.ext (by match a with | ⟨0, _⟩ => rfl | ⟨1, _⟩ => rfl | ⟨2, _⟩ => rfl)

theorem voteA_apply (uh c : Arr3 Ideal) (x2 : (⟨S1024, .f32⟩ : BufTy).Contents (Elt Ideal)) (b : Fin 64) (o : Fin 1024) :
    voteA uh c x2 (ix2 b o) = (∑ i : Fin 1024, uh (ix3 b i o) * c (ix3 b i o)) + x2 (ix1 o) := by
  unfold voteA
  refine (congrArg₂ (· + ·) (sumCapsules_apply _ b o) (biasA_apply x2 b o)).trans ?_
  rfl

theorem normA_apply (x : Arr2 Ideal) (b : Fin 64) :
    normA x (ix2 b (0 : Fin 1)) = Ideal.sqrt (normSq (fun o : Fin 1024 => x (ix2 b o))) := by
  unfold normA normSq
  refine congrArg Ideal.sqrt ?_
  refine (broadcastInDim_apply _ bcast_S64_S64x1_0 _ (ix2 b (0 : Fin 1)) (ix1 b)
    (fun a => match a with | ⟨0, _⟩ => rfl)).trans ?_
  simp only [Host.reduceAdd, Ideal.hostReduceAdd_def]
  rw [Ideal.hostReduceAdd_single reducesTo_S64x1024_S64_d1 (by decide)]
  show Ideal.ofBits .f32 0x00000000#32 + _ = _
  rw [Ideal.ofBits_zero_f32, zero_add]
  refine Finset.sum_congr rfl fun o _ => ?_
  have e : ((by decide : S64x1024.Reduces [1] S64).lift (ix1 b) o : S64x1024.Idx) = ix2 b o :=
    funext fun a => Fin.ext (by match a with | ⟨0, _⟩ => rfl | ⟨1, _⟩ => rfl)
  exact congrArg (fun y => x y * x y) e

theorem col_apply (c : (⟨S64x1, .f32⟩ : BufTy).Contents (Elt Ideal)) (b : Fin 64) (o : Fin 1024) :
    broadcastInDim S64x1024 ![0, 1] bcast_S64x1_S64x1024_0_1 c (ix2 b o) = c (ix2 b (0 : Fin 1)) :=
  broadcastInDim_apply _ bcast_S64x1_S64x1024_0_1 c (ix2 b o) (ix2 b (0 : Fin 1))
    (fun a => match a with | ⟨0, _⟩ => rfl | ⟨1, _⟩ => rfl)

theorem squashA_apply (x : Arr2 Ideal) (b : Fin 64) (o : Fin 1024) :
    squashA x (ix2 b o) = squash (fun o' : Fin 1024 => x (ix2 b o')) o := by
  unfold squashA squash
  refine congrArg₂ Ideal.div (congrArg₂ (· * ·) ((col_apply _ b o).trans ?_) rfl) ((col_apply _ b o).trans ?_)
  · show Ideal.div (normA x (ix2 b (0 : Fin 1)) * normA x (ix2 b (0 : Fin 1)))
        (Ideal.ofBits .f32 0x3F800000#32 + normA x (ix2 b (0 : Fin 1)) * normA x (ix2 b (0 : Fin 1))) = _
    rw [normA_apply, sqrt_mul_self (normSq_nonneg _)]
  · show normA x (ix2 b (0 : Fin 1)) + Ideal.ofBits .f32 0x3727C5AC#32 = _
    rw [normA_apply]

theorem updateA_apply (z uh : Arr3 Ideal) (v : Arr2 Ideal) (b : Fin 64) (i o : Fin 1024) :
    updateA z uh v (ix3 b i o) = z (ix3 b i o) + uh (ix3 b i o) * v (ix2 b o) := by
  unfold updateA
  show z (ix3 b i o) + uh (ix3 b i o) * capsules (F := Ideal) v (ix3 b i o) = _
  rw [capsules_apply]

/-- The maximum of a [64, 1024] array against another at an index, when the first holds -∞ there and the second the fold of
    max from -∞ over a row. -/
theorem rowMax_of {A R : Arr2 Ideal} {j : S64x1024.Idx} {f : Fin 1024 → EReal} (hA : A j = negInf)
    (hR : R j = Finset.fold max negInf f Finset.univ) :
    maximumf (F := Ideal) (s := S64x1024) (φ := .f32) A R j = rowMax f := by
  unfold rowMax
  show max (A j) (R j) = _
  rw [hA, hR]

theorem rowMaxA_eq (z : Arr3 Ideal) :
    rowMaxA z = maximumf (F := Ideal) (s := S64x1024) (φ := .f32)
      (broadcastInDim S64x1024 ![] bcast_S_S64x1024 (constant S_ .f32 0xFF800000#32))
      (Host.reduce FloatOps.maximumf z (constant S_ .f32 0xFF800000#32) reducesTo_S64x1024x1024_S64x1024_d2 h_S_) := rfl

theorem rowMaxA_apply (z : Arr3 Ideal) (b : Fin 64) (i : Fin 1024) :
    rowMaxA z (ix2 b i) = rowMax (fun o : Fin 1024 => z (ix3 b i o)) := by
  have h := Host.reduce_eq_fold_single (FloatOps.maximumf (F := Ideal) (φ := .f32)) z
    (constant (F := Ideal) S_ .f32 0xFF800000#32) reducesTo_S64x1024x1024_S64x1024_d2 (by decide) h_S_ (ix2 b i)
  rw [rowMaxA_eq]
  refine rowMax_of rfl (h.trans ?_)
  refine congrArg (fun f => Finset.fold max negInf f Finset.univ) (funext fun o => congrArg z ?_)
  exact funext fun a => Fin.ext (by match a with | ⟨0, _⟩ => rfl | ⟨1, _⟩ => rfl | ⟨2, _⟩ => rfl)

theorem expShiftA_apply (z : Arr3 Ideal) (b : Fin 64) (i o : Fin 1024) :
    expShiftA z (ix3 b i o) = Ideal.exp (z (ix3 b i o) - rowMax (fun o' : Fin 1024 => z (ix3 b i o'))) := by
  unfold expShiftA
  show Ideal.exp (z (ix3 b i o) - lanes (F := Ideal) (rowMaxA z) (ix3 b i o)) = _
  rw [lanes_apply, rowMaxA_apply]

theorem softmaxA_apply (z : Arr3 Ideal) (b : Fin 64) (i o : Fin 1024) :
    softmaxA z (ix3 b i o) = softmax (fun o' : Fin 1024 => z (ix3 b i o')) o := by
  unfold softmaxA softmax
  show Ideal.div (expShiftA z (ix3 b i o)) (lanes (F := Ideal) _ (ix3 b i o)) = _
  rw [lanes_apply, sumLanes_apply, expShiftA_apply]
  refine congrArg (Ideal.div _) (Finset.sum_congr rfl fun o' _ => ?_)
  rw [expShiftA_apply]

end Cert.ReferenceIdeal.Rows

end
-- ==== Proof.RefRoute.lean ====
/-
  The reference's result, read at (row, lane): the routing of that batch row.

  The reference's program is the composition of the array stages of HostOps.lean: the votes; the first round with the
  uniform coefficients; the logits 0 + votes · v; the second round with the softmax of those logits; the logits
  again; the third round. Row b of every stage depends on row b of u only, and read at an index each stage is the
  formula of Routing.lean.
-/
import proofs.«110863_j61160334295610_2_alg».proof.Proof.HostOps

noncomputable section

namespace Cert.ReferenceIdeal.Rows

open Idealize.ShloMosaic Idealize.ShloMosaic.ValueIdx Cert.ReferenceIdeal Cert.ReferenceIdeal.Facts₀ Cert.ReferenceIdeal.Facts Cert.Routing

section
variable {F : FTy → Type} [FloatOps F]
variable (x0 : (⟨S64x1024, .f32⟩ : BufTy).Contents (Elt F)) (x1 : (⟨S1024x1024, .f32⟩ : BufTy).Contents (Elt F))
  (x2 : (⟨S1024, .f32⟩ : BufTy).Contents (Elt F))

/-- The three rounds over whole arrays. -/
def s1 : (⟨S64x1024, .f32⟩ : BufTy).Contents (Elt F) := squashA (voteA (votesA x0 x1) uniformA x2)
def g1 : (⟨S64x1024x1024, .f32⟩ : BufTy).Contents (Elt F) := updateA zeroA (votesA x0 x1) (s1 x0 x1 x2)
def s2 : (⟨S64x1024, .f32⟩ : BufTy).Contents (Elt F) := squashA (voteA (votesA x0 x1) (softmaxA (g1 x0 x1 x2)) x2)
def g2 : (⟨S64x1024x1024, .f32⟩ : BufTy).Contents (Elt F) := updateA (g1 x0 x1 x2) (votesA x0 x1) (s2 x0 x1 x2)
def s3 : (⟨S64x1024, .f32⟩ : BufTy).Contents (Elt F) := squashA (voteA (votesA x0 x1) (softmaxA (g2 x0 x1 x2)) x2)

end

variable (x0 : (⟨S64x1024, .f32⟩ : BufTy).Contents (Elt Ideal)) (x1 : (⟨S1024x1024, .f32⟩ : BufTy).Contents (Elt Ideal))
  (x2 : (⟨S1024, .f32⟩ : BufTy).Contents (Elt Ideal))

/-- Row b of u, the matrix w and the bias as plain functions. -/
def rowU (b : Fin 64) : Fin 1024 → EReal := fun i => x0 (ix2 b i)
def matW : Fin 1024 → Fin 1024 → EReal := fun i o => x1 (ix2 i o)
def vecB : Fin 1024 → EReal := fun o => x2 (ix1 o)

/-- A round at (b, o) over logits that are the rows of one matrix B of the batch row. -/
theorem round_apply (z : (⟨S64x1024x1024, .f32⟩ : BufTy).Contents (Elt Ideal)) (b : Fin 64) (B : Fin 1024 → Fin 1024 → EReal)
    (hz : ∀ i o : Fin 1024, z (ix3 b i o) = B i o) (o : Fin 1024) :
    squashA (voteA (votesA x0 x1) (softmaxA z) x2) (ix2 b o)
      = squash (vote (votes (rowU x0 b) (matW x1)) (fun i => softmax (B i)) (vecB x2)) o := by
  rw [squashA_apply]
  refine congrArg (squash · o) (funext fun o' => ?_)
  rw [voteA_apply]
  unfold vote
  refine congrArg (· + x2 (ix1 o')) (Finset.sum_congr rfl fun i _ => ?_)
  rw [votesA_apply, softmaxA_apply, funext (hz i)]
  rfl

theorem s1_apply (b : Fin 64) (o : Fin 1024) : s1 x0 x1 x2 (ix2 b o) = v1 (rowU x0 b) (matW x1) (vecB x2) o := by
  unfold s1 v1
  rw [squashA_apply]
  refine congrArg (squash · o) (funext fun o' => ?_)
  rw [voteA_apply]
  unfold vote
  refine congrArg (· + x2 (ix1 o')) (Finset.sum_congr rfl fun i _ => ?_)
  rw [votesA_apply, uniformA_apply]
  rfl

theorem g1_apply (b : Fin 64) (i o : Fin 1024) : g1 x0 x1 x2 (ix3 b i o) = b1 (rowU x0 b) (matW x1) (vecB x2) i o := by
  unfold g1 b1
  rw [updateA_apply, zeroA_apply, zero_add, votesA_apply, s1_apply]
  rfl

theorem s2_apply (b : Fin 64) (o : Fin 1024) : s2 x0 x1 x2 (ix2 b o) = v2 (rowU x0 b) (matW x1) (vecB x2) o := by
  unfold s2 v2
  exact round_apply x0 x1 x2 _ b _ (fun i o => g1_apply x0 x1 x2 b i o) o

theorem g2_apply (b : Fin 64) (i o : Fin 1024) : g2 x0 x1 x2 (ix3 b i o) = b2 (rowU x0 b) (matW x1) (vecB x2) i o := by
  unfold g2 b2
  rw [updateA_apply, g1_apply, votesA_apply, s2_apply]
  rfl

/-- The reference's result at (b, o) is the routing of row b. -/
theorem s3_apply (b : Fin 64) (o : Fin 1024) : s3 x0 x1 x2 (ix2 b o) = route (rowU x0 b) (matW x1) (vecB x2) o := by
  unfold s3 route
  exact round_apply x0 x1 x2 _ b _ (fun i o => g2_apply x0 x1 x2 b i o) o

end Cert.ReferenceIdeal.Rows

end
-- ==== Proof.RefRun.lean ====
/-
  The reference's run: its 115 host operations in order, and what its result buffer holds at the end.

  The operations fall into eleven stretches — the votes; a vote, a squash and the logits' update, with the softmax of
  the logits before each later vote — and the result of each stretch is one array stage of HostOps.lean applied to
  the results of earlier stretches. Read stretch by stretch, every stage is named once and used by name after, so
  the result buffer ends at the third round's squash s3 of the three argument arrays.
-/
import proofs.«110863_j61160334295610_2_alg».proof.Proof.Gen.ReferenceIdeal
import proofs.«110863_j61160334295610_2_alg».proof.Proof.RefRoute
import Idealize.ShloMosaic.Lib.StableHlo.Run

noncomputable section

namespace Cert.ReferenceIdeal.HandRun

open Cert.ReferenceIdeal Cert.ReferenceIdeal.Gen Cert.ReferenceIdeal.Rows
open Idealize.ShloMosaic Idealize.ShloMosaic.TcCoe Idealize.SL.Sem Idealize.ShloMosaic.StableHlo

variable {F : FTy → Type} [FloatOps F]

/-- @main's operations 1 … 5: the votes u · w. -/
abbrev votesOps : List (HloOp τ sig (Elt F)) :=
  [ unary main_arg0 main_v0 (broadcastInDim S64x1024x1 ![0, 1] bcast_S64x1024_S64x1024x1_0_1 : (⟨S64x1024, .f32⟩ : BufTy).Contents (Elt F) → (⟨S64x1024x1, .f32⟩ : BufTy).Contents (Elt F)),
    unary main_arg1 main_v1 (broadcastInDim S1x1024x1024 ![1, 2] bcast_S1024x1024_S1x1024x1024_1_2 : (⟨S1024x1024, .f32⟩ : BufTy).Contents (Elt F) → (⟨S1x1024x1024, .f32⟩ : BufTy).Contents (Elt F)),
    unary main_v0 main_v2 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    unary main_v1 main_v3 (broadcastInDim S64x1024x1024 ![0, 1, 2] bcast_S1x1024x1024_S64x1024x1024_0_1_2 : (⟨S1x1024x1024, .f32⟩ : BufTy).Contents (Elt F) → (⟨S64x1024x1024, .f32⟩ : BufTy).Contents (Elt F)),
    binary main_v2 main_v3 main_v4 (mulf : (⟨S64x1024x1024, .f32⟩ : BufTy).Contents (Elt F) → (⟨S64x1024x1024, .f32⟩ : BufTy).Contents (Elt F) → (⟨S64x1024x1024, .f32⟩ : BufTy).Contents (Elt F)) ]

theorem votesOps_sub : (votesOps : List (HloOp τ sig (Elt F))).Forall fun op => op.bufs ⊆ tcRefs τ sig :=
  ⟨unary_bufs_sub .., unary_bufs_sub .., unary_bufs_sub .., unary_bufs_sub .., binary_bufs_sub ..⟩

/-- @main's operations 6 … 16: the first round's vote with the uniform coefficients. -/
abbrev vote1Ops : List (HloOp τ sig (Elt F)) :=
  [ nullary main_cst (constant S_ .f32 0x3A800000#32),
    unary main_cst main_v5 (broadcastInDim S1x1x1024 ![] bcast_S_S1x1x1024 : (⟨S_, .f32⟩ : BufTy).Contents (Elt F) → (⟨S1x1x1024, .f32⟩ : BufTy).Contents (Elt F)),
    nullary main_cst_0 (constant S_ .f32 0x00000000#32),
    unary main_cst_0 main_v6 (broadcastInDim S64x1024x1024 ![] bcast_S_S64x1024x1024 : (⟨S_, .f32⟩ : BufTy).Contents (Elt F) → (⟨S64x1024x1024, .f32⟩ : BufTy).Contents (Elt F)),
    unary main_v5 main_v7 (broadcastInDim S64x1024x1024 ![0, 1, 2] bcast_S1x1x1024_S64x1024x1024_0_1_2 : (⟨S1x1x1024, .f32⟩ : BufTy).Contents (Elt F) → (⟨S64x1024x1024, .f32⟩ : BufTy).Contents (Elt F)),
    binary main_v4 main_v7 main_v8 (mulf : (⟨S64x1024x1024, .f32⟩ : BufTy).Contents (Elt F) → (⟨S64x1024x1024, .f32⟩ : BufTy).Contents (Elt F) → (⟨S64x1024x1024, .f32⟩ : BufTy).Contents (Elt F)),
    nullary main_cst_1 (constant S_ .f32 0x00000000#32),
    binary main_v8 main_cst_1 main_v9 ((fun x v => Host.reduceAdd x v reducesTo_S64x1024x1024_S64x1024_d1 h_S_) : (⟨S64x1024x1024, .f32⟩ : BufTy).Contents (Elt F) → (⟨S_, .f32⟩ : BufTy).Contents (Elt F) → (⟨S64x1024, .f32⟩ : BufTy).Contents (Elt F)),
    unary main_arg2 main_v10 (broadcastInDim S1x1024 ![1] bcast_S1024_S1x1024_1 : (⟨S1024, .f32⟩ : BufTy).Contents (Elt F) → (⟨S1x1024, .f32⟩ : BufTy).Contents (Elt F)),
    unary main_v10 main_v11 (broadcastInDim S64x1024 ![0, 1] bcast_S1x1024_S64x1024_0_1 : (⟨S1x1024, .f32⟩ : BufTy).Contents (Elt F) → (⟨S64x1024, .f32⟩ : BufTy).Contents (Elt F)),
    binary main_v9 main_v11 main_v12 (addf : (⟨S64x1024, .f32⟩ : BufTy).Contents (Elt F) → (⟨S64x1024, .f32⟩ : BufTy).Contents (Elt F) → (⟨S64x1024, .f32⟩ : BufTy).Contents (Elt F)) ]

theorem vote1Ops_sub : (vote1Ops : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., binary_bufs_sub .., unary_bufs_sub .., unary_bufs_sub .., binary_bufs_sub ..⟩

/-- @main's operations 17 … 33: the first squash. -/
abbrev squash1Ops : List (HloOp τ sig (Elt F)) :=
  [ TRef.binary (TRef.of (T := ⟨S64x1024, .f32⟩) main_v12) (TRef.of (T := ⟨S64x1024, .f32⟩) main_v12) (TRef.of (T := ⟨S64x1024, .f32⟩) main_call0_v0) mulf,
    TRef.nullary (TRef.of (T := ⟨S_, .f32⟩) main_call0_cst) (constant S_ .f32 0x00000000#32),
    TRef.binary (TRef.of (T := ⟨S64x1024, .f32⟩) main_call0_v0) (TRef.of (T := ⟨S_, .f32⟩) main_call0_cst) (TRef.of (T := ⟨S64, .f32⟩) main_call0_v1) (fun x v => Host.reduceAdd x v reducesTo_S64x1024_S64_d1 h_S_),
    TRef.unary (TRef.of (T := ⟨S64, .f32⟩) main_call0_v1) (TRef.of (T := ⟨S64x1, .f32⟩) main_call0_v2) (broadcastInDim S64x1 ![0] bcast_S64_S64x1_0),
    TRef.unary (TRef.of (T := ⟨S64x1, .f32⟩) main_call0_v2) (TRef.of (T := ⟨S64x1, .f32⟩) main_v13) Host.sqrt,
    binary main_v13 main_v13 main_v14 (mulf : (⟨S64x1, .f32⟩ : BufTy).Contents (Elt F) → (⟨S64x1, .f32⟩ : BufTy).Contents (Elt F) → (⟨S64x1, .f32⟩ : BufTy).Contents (Elt F)),
    nullary main_cst_2 (constant S_ .f32 0x3F800000#32),
    unary main_cst_2 main_v15 (broadcastInDim S64x1 ![] bcast_S_S64x1 : (⟨S_, .f32⟩ : BufTy).Contents (Elt F) → (⟨S64x1, .f32⟩ : BufTy).Contents (Elt F)),
    binary main_v15 main_v14 main_v16 (addf : (⟨S64x1, .f32⟩ : BufTy).Contents (Elt F) → (⟨S64x1, .f32⟩ : BufTy).Contents (Elt F) → (⟨S64x1, .f32⟩ : BufTy).Contents (Elt F)),
    binary main_v14 main_v16 main_v17 (Host.divf : (⟨S64x1, .f32⟩ : BufTy).Contents (Elt F) → (⟨S64x1, .f32⟩ : BufTy).Contents (Elt F) → (⟨S64x1, .f32⟩ : BufTy).Contents (Elt F)),
    unary main_v17 main_v18 (broadcastInDim S64x1024 ![0, 1] bcast_S64x1_S64x1024_0_1 : (⟨S64x1, .f32⟩ : BufTy).Contents (Elt F) → (⟨S64x1024, .f32⟩ : BufTy).Contents (Elt F)),
    binary main_v18 main_v12 main_v19 (mulf : (⟨S64x1024, .f32⟩ : BufTy).Contents (Elt F) → (⟨S64x1024, .f32⟩ : BufTy).Contents (Elt F) → (⟨S64x1024, .f32⟩ : BufTy).Contents (Elt F)),
    nullary main_cst_3 (constant S_ .f32 0x3727C5AC#32),
    unary main_cst_3 main_v20 (broadcastInDim S64x1 ![] bcast_S_S64x1 : (⟨S_, .f32⟩ : BufTy).Contents (Elt F) → (⟨S64x1, .f32⟩ : BufTy).Contents (Elt F)),
    binary main_v13 main_v20 main_v21 (addf : (⟨S64x1, .f32⟩ : BufTy).Contents (Elt F) → (⟨S64x1, .f32⟩ : BufTy).Contents (Elt F) → (⟨S64x1, .f32⟩ : BufTy).Contents (Elt F)),
    unary main_v21 main_v22 (broadcastInDim S64x1024 ![0, 1] bcast_S64x1_S64x1024_0_1 : (⟨S64x1, .f32⟩ : BufTy).Contents (Elt F) → (⟨S64x1024, .f32⟩ : BufTy).Contents (Elt F)),
    binary main_v19 main_v22 main_v23 (Host.divf : (⟨S64x1024, .f32⟩ : BufTy).Contents (Elt F) → (⟨S64x1024, .f32⟩ : BufTy).Contents (Elt F) → (⟨S64x1024, .f32⟩ : BufTy).Contents (Elt F)) ]

theorem squash1Ops_sub : (squash1Ops : List (HloOp τ sig (Elt F))).Forall fun op => op.bufs ⊆ tcRefs τ sig :=
  ⟨binary_bufs_sub .., nullary_bufs_sub .., binary_bufs_sub .., unary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., unary_bufs_sub .., binary_bufs_sub ..⟩

/-- @main's operations 34 … 37: the logits after the first round. -/
abbrev update1Ops : List (HloOp τ sig (Elt F)) :=
  [ unary main_v23 main_v24 (broadcastInDim S64x1x1024 ![0, 2] bcast_S64x1024_S64x1x1024_0_2 : (⟨S64x1024, .f32⟩ : BufTy).Contents (Elt F) → (⟨S64x1x1024, .f32⟩ : BufTy).Contents (Elt F)),
    unary main_v24 main_v25 (broadcastInDim S64x1024x1024 ![0, 1, 2] bcast_S64x1x1024_S64x1024x1024_0_1_2 : (⟨S64x1x1024, .f32⟩ : BufTy).Contents (Elt F) → (⟨S64x1024x1024, .f32⟩ : BufTy).Contents (Elt F)),
    binary main_v4 main_v25 main_v26 (mulf : (⟨S64x1024x1024, .f32⟩ : BufTy).Contents (Elt F) → (⟨S64x1024x1024, .f32⟩ : BufTy).Contents (Elt F) → (⟨S64x1024x1024, .f32⟩ : BufTy).Contents (Elt F)),
    binary main_v6 main_v26 main_v27 (addf : (⟨S64x1024x1024, .f32⟩ : BufTy).Contents (Elt F) → (⟨S64x1024x1024, .f32⟩ : BufTy).Contents (Elt F) → (⟨S64x1024x1024, .f32⟩ : BufTy).Contents (Elt F)) ]

theorem update1Ops_sub : (update1Ops : List (HloOp τ sig (Elt F))).Forall fun op => op.bufs ⊆ tcRefs τ sig :=
  ⟨unary_bufs_sub .., unary_bufs_sub .., binary_bufs_sub .., binary_bufs_sub ..⟩

/-- @main's operations 38 … 51: their softmax. -/
abbrev softmax1Ops : List (HloOp τ sig (Elt F)) :=
  [ nullary main_cst_4 (constant S_ .f32 0xFF800000#32),
    binary main_v27 main_cst_4 main_v28 ((fun x v => Host.reduce FloatOps.maximumf x v reducesTo_S64x1024x1024_S64x1024_d2 h_S_) : (⟨S64x1024x1024, .f32⟩ : BufTy).Contents (Elt F) → (⟨S_, .f32⟩ : BufTy).Contents (Elt F) → (⟨S64x1024, .f32⟩ : BufTy).Contents (Elt F)),
    nullary main_cst_5 (constant S_ .f32 0xFF800000#32),
    unary main_cst_5 main_v29 (broadcastInDim S64x1024 ![] bcast_S_S64x1024 : (⟨S_, .f32⟩ : BufTy).Contents (Elt F) → (⟨S64x1024, .f32⟩ : BufTy).Contents (Elt F)),
    binary main_v29 main_v28 main_v30 (maximumf : (⟨S64x1024, .f32⟩ : BufTy).Contents (Elt F) → (⟨S64x1024, .f32⟩ : BufTy).Contents (Elt F) → (⟨S64x1024, .f32⟩ : BufTy).Contents (Elt F)),
    unary main_v30 main_v31 (broadcastInDim S64x1024x1 ![0, 1] bcast_S64x1024_S64x1024x1_0_1 : (⟨S64x1024, .f32⟩ : BufTy).Contents (Elt F) → (⟨S64x1024x1, .f32⟩ : BufTy).Contents (Elt F)),
    unary main_v31 main_v32 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    binary main_v27 main_v32 main_v33 (subf : (⟨S64x1024x1024, .f32⟩ : BufTy).Contents (Elt F) → (⟨S64x1024x1024, .f32⟩ : BufTy).Contents (Elt F) → (⟨S64x1024x1024, .f32⟩ : BufTy).Contents (Elt F)),
    unary main_v33 main_v34 (Host.exp : (⟨S64x1024x1024, .f32⟩ : BufTy).Contents (Elt F) → (⟨S64x1024x1024, .f32⟩ : BufTy).Contents (Elt F)),
    nullary main_cst_6 (constant S_ .f32 0x00000000#32),
    binary main_v34 main_cst_6 main_v35 ((fun x v => Host.reduceAdd x v reducesTo_S64x1024x1024_S64x1024_d2 h_S_) : (⟨S64x1024x1024, .f32⟩ : BufTy).Contents (Elt F) → (⟨S_, .f32⟩ : BufTy).Contents (Elt F) → (⟨S64x1024, .f32⟩ : BufTy).Contents (Elt F)),
    unary main_v35 main_v36 (broadcastInDim S64x1024x1 ![0, 1] bcast_S64x1024_S64x1024x1_0_1 : (⟨S64x1024, .f32⟩ : BufTy).Contents (Elt F) → (⟨S64x1024x1, .f32⟩ : BufTy).Contents (Elt F)),
    unary main_v36 main_v37 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    binary main_v34 main_v37 main_v38 (Host.divf : (⟨S64x1024x1024, .f32⟩ : BufTy).Contents (Elt F) → (⟨S64x1024x1024, .f32⟩ : BufTy).Contents (Elt F) → (⟨S64x1024x1024, .f32⟩ : BufTy).Contents (Elt F)) ]

theorem softmax1Ops_sub : (softmax1Ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- @main's operations 52 … 57: the second round's vote. -/
abbrev vote2Ops : List (HloOp τ sig (Elt F)) :=
  [ binary main_v4 main_v38 main_v39 (mulf : (⟨S64x1024x1024, .f32⟩ : BufTy).Contents (Elt F) → (⟨S64x1024x1024, .f32⟩ : BufTy).Contents (Elt F) → (⟨S64x1024x1024, .f32⟩ : BufTy).Contents (Elt F)),
    nullary main_cst_7 (constant S_ .f32 0x00000000#32),
    binary main_v39 main_cst_7 main_v40 ((fun x v => Host.reduceAdd x v reducesTo_S64x1024x1024_S64x1024_d1 h_S_) : (⟨S64x1024x1024, .f32⟩ : BufTy).Contents (Elt F) → (⟨S_, .f32⟩ : BufTy).Contents (Elt F) → (⟨S64x1024, .f32⟩ : BufTy).Contents (Elt F)),
    unary main_arg2 main_v41 (broadcastInDim S1x1024 ![1] bcast_S1024_S1x1024_1 : (⟨S1024, .f32⟩ : BufTy).Contents (Elt F) → (⟨S1x1024, .f32⟩ : BufTy).Contents (Elt F)),
    unary main_v41 main_v42 (broadcastInDim S64x1024 ![0, 1] bcast_S1x1024_S64x1024_0_1 : (⟨S1x1024, .f32⟩ : BufTy).Contents (Elt F) → (⟨S64x1024, .f32⟩ : BufTy).Contents (Elt F)),
    binary main_v40 main_v42 main_v43 (addf : (⟨S64x1024, .f32⟩ : BufTy).Contents (Elt F) → (⟨S64x1024, .f32⟩ : BufTy).Contents (Elt F) → (⟨S64x1024, .f32⟩ : BufTy).Contents (Elt F)) ]

theorem vote2Ops_sub : (vote2Ops : List (HloOp τ sig (Elt F))).Forall fun op => op.bufs ⊆ tcRefs τ sig :=
  ⟨binary_bufs_sub .., nullary_bufs_sub .., binary_bufs_sub .., unary_bufs_sub .., unary_bufs_sub .., binary_bufs_sub ..⟩

/-- @main's operations 58 … 74: the second squash. -/
abbrev squash2Ops : List (HloOp τ sig (Elt F)) :=
  [ TRef.binary (TRef.of (T := ⟨S64x1024, .f32⟩) main_v43) (TRef.of (T := ⟨S64x1024, .f32⟩) main_v43) (TRef.of (T := ⟨S64x1024, .f32⟩) main_call1_v0) mulf,
    TRef.nullary (TRef.of (T := ⟨S_, .f32⟩) main_call1_cst) (constant S_ .f32 0x00000000#32),
    TRef.binary (TRef.of (T := ⟨S64x1024, .f32⟩) main_call1_v0) (TRef.of (T := ⟨S_, .f32⟩) main_call1_cst) (TRef.of (T := ⟨S64, .f32⟩) main_call1_v1) (fun x v => Host.reduceAdd x v reducesTo_S64x1024_S64_d1 h_S_),
    TRef.unary (TRef.of (T := ⟨S64, .f32⟩) main_call1_v1) (TRef.of (T := ⟨S64x1, .f32⟩) main_call1_v2) (broadcastInDim S64x1 ![0] bcast_S64_S64x1_0),
    TRef.unary (TRef.of (T := ⟨S64x1, .f32⟩) main_call1_v2) (TRef.of (T := ⟨S64x1, .f32⟩) main_v44) Host.sqrt,
    binary main_v44 main_v44 main_v45 (mulf : (⟨S64x1, .f32⟩ : BufTy).Contents (Elt F) → (⟨S64x1, .f32⟩ : BufTy).Contents (Elt F) → (⟨S64x1, .f32⟩ : BufTy).Contents (Elt F)),
    nullary main_cst_8 (constant S_ .f32 0x3F800000#32),
    unary main_cst_8 main_v46 (broadcastInDim S64x1 ![] bcast_S_S64x1 : (⟨S_, .f32⟩ : BufTy).Contents (Elt F) → (⟨S64x1, .f32⟩ : BufTy).Contents (Elt F)),
    binary main_v46 main_v45 main_v47 (addf : (⟨S64x1, .f32⟩ : BufTy).Contents (Elt F) → (⟨S64x1, .f32⟩ : BufTy).Contents (Elt F) → (⟨S64x1, .f32⟩ : BufTy).Contents (Elt F)),
    binary main_v45 main_v47 main_v48 (Host.divf : (⟨S64x1, .f32⟩ : BufTy).Contents (Elt F) → (⟨S64x1, .f32⟩ : BufTy).Contents (Elt F) → (⟨S64x1, .f32⟩ : BufTy).Contents (Elt F)),
    unary main_v48 main_v49 (broadcastInDim S64x1024 ![0, 1] bcast_S64x1_S64x1024_0_1 : (⟨S64x1, .f32⟩ : BufTy).Contents (Elt F) → (⟨S64x1024, .f32⟩ : BufTy).Contents (Elt F)),
    binary main_v49 main_v43 main_v50 (mulf : (⟨S64x1024, .f32⟩ : BufTy).Contents (Elt F) → (⟨S64x1024, .f32⟩ : BufTy).Contents (Elt F) → (⟨S64x1024, .f32⟩ : BufTy).Contents (Elt F)),
    nullary main_cst_9 (constant S_ .f32 0x3727C5AC#32),
    unary main_cst_9 main_v51 (broadcastInDim S64x1 ![] bcast_S_S64x1 : (⟨S_, .f32⟩ : BufTy).Contents (Elt F) → (⟨S64x1, .f32⟩ : BufTy).Contents (Elt F)),
    binary main_v44 main_v51 main_v52 (addf : (⟨S64x1, .f32⟩ : BufTy).Contents (Elt F) → (⟨S64x1, .f32⟩ : BufTy).Contents (Elt F) → (⟨S64x1, .f32⟩ : BufTy).Contents (Elt F)),
    unary main_v52 main_v53 (broadcastInDim S64x1024 ![0, 1] bcast_S64x1_S64x1024_0_1 : (⟨S64x1, .f32⟩ : BufTy).Contents (Elt F) → (⟨S64x1024, .f32⟩ : BufTy).Contents (Elt F)),
    binary main_v50 main_v53 main_v54 (Host.divf : (⟨S64x1024, .f32⟩ : BufTy).Contents (Elt F) → (⟨S64x1024, .f32⟩ : BufTy).Contents (Elt F) → (⟨S64x1024, .f32⟩ : BufTy).Contents (Elt F)) ]

theorem squash2Ops_sub : (squash2Ops : List (HloOp τ sig (Elt F))).Forall fun op => op.bufs ⊆ tcRefs τ sig :=
  ⟨binary_bufs_sub .., nullary_bufs_sub .., binary_bufs_sub .., unary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., unary_bufs_sub .., binary_bufs_sub ..⟩

/-- @main's operations 75 … 78: the logits after the second round. -/
abbrev update2Ops : List (HloOp τ sig (Elt F)) :=
  [ unary main_v54 main_v55 (broadcastInDim S64x1x1024 ![0, 2] bcast_S64x1024_S64x1x1024_0_2 : (⟨S64x1024, .f32⟩ : BufTy).Contents (Elt F) → (⟨S64x1x1024, .f32⟩ : BufTy).Contents (Elt F)),
    unary main_v55 main_v56 (broadcastInDim S64x1024x1024 ![0, 1, 2] bcast_S64x1x1024_S64x1024x1024_0_1_2 : (⟨S64x1x1024, .f32⟩ : BufTy).Contents (Elt F) → (⟨S64x1024x1024, .f32⟩ : BufTy).Contents (Elt F)),
    binary main_v4 main_v56 main_v57 (mulf : (⟨S64x1024x1024, .f32⟩ : BufTy).Contents (Elt F) → (⟨S64x1024x1024, .f32⟩ : BufTy).Contents (Elt F) → (⟨S64x1024x1024, .f32⟩ : BufTy).Contents (Elt F)),
    binary main_v27 main_v57 main_v58 (addf : (⟨S64x1024x1024, .f32⟩ : BufTy).Contents (Elt F) → (⟨S64x1024x1024, .f32⟩ : BufTy).Contents (Elt F) → (⟨S64x1024x1024, .f32⟩ : BufTy).Contents (Elt F)) ]

theorem update2Ops_sub : (update2Ops : List (HloOp τ sig (Elt F))).Forall fun op => op.bufs ⊆ tcRefs τ sig :=
  ⟨unary_bufs_sub .., unary_bufs_sub .., binary_bufs_sub .., binary_bufs_sub ..⟩

/-- @main's operations 79 … 92: their softmax. -/
abbrev softmax2Ops : List (HloOp τ sig (Elt F)) :=
  [ nullary main_cst_10 (constant S_ .f32 0xFF800000#32),
    binary main_v58 main_cst_10 main_v59 ((fun x v => Host.reduce FloatOps.maximumf x v reducesTo_S64x1024x1024_S64x1024_d2 h_S_) : (⟨S64x1024x1024, .f32⟩ : BufTy).Contents (Elt F) → (⟨S_, .f32⟩ : BufTy).Contents (Elt F) → (⟨S64x1024, .f32⟩ : BufTy).Contents (Elt F)),
    nullary main_cst_11 (constant S_ .f32 0xFF800000#32),
    unary main_cst_11 main_v60 (broadcastInDim S64x1024 ![] bcast_S_S64x1024 : (⟨S_, .f32⟩ : BufTy).Contents (Elt F) → (⟨S64x1024, .f32⟩ : BufTy).Contents (Elt F)),
    binary main_v60 main_v59 main_v61 (maximumf : (⟨S64x1024, .f32⟩ : BufTy).Contents (Elt F) → (⟨S64x1024, .f32⟩ : BufTy).Contents (Elt F) → (⟨S64x1024, .f32⟩ : BufTy).Contents (Elt F)),
    unary main_v61 main_v62 (broadcastInDim S64x1024x1 ![0, 1] bcast_S64x1024_S64x1024x1_0_1 : (⟨S64x1024, .f32⟩ : BufTy).Contents (Elt F) → (⟨S64x1024x1, .f32⟩ : BufTy).Contents (Elt F)),
    unary main_v62 main_v63 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    binary main_v58 main_v63 main_v64 (subf : (⟨S64x1024x1024, .f32⟩ : BufTy).Contents (Elt F) → (⟨S64x1024x1024, .f32⟩ : BufTy).Contents (Elt F) → (⟨S64x1024x1024, .f32⟩ : BufTy).Contents (Elt F)),
    unary main_v64 main_v65 (Host.exp : (⟨S64x1024x1024, .f32⟩ : BufTy).Contents (Elt F) → (⟨S64x1024x1024, .f32⟩ : BufTy).Contents (Elt F)),
    nullary main_cst_12 (constant S_ .f32 0x00000000#32),
    binary main_v65 main_cst_12 main_v66 ((fun x v => Host.reduceAdd x v reducesTo_S64x1024x1024_S64x1024_d2 h_S_) : (⟨S64x1024x1024, .f32⟩ : BufTy).Contents (Elt F) → (⟨S_, .f32⟩ : BufTy).Contents (Elt F) → (⟨S64x1024, .f32⟩ : BufTy).Contents (Elt F)),
    unary main_v66 main_v67 (broadcastInDim S64x1024x1 ![0, 1] bcast_S64x1024_S64x1024x1_0_1 : (⟨S64x1024, .f32⟩ : BufTy).Contents (Elt F) → (⟨S64x1024x1, .f32⟩ : BufTy).Contents (Elt F)),
    unary main_v67 main_v68 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    binary main_v65 main_v68 main_v69 (Host.divf : (⟨S64x1024x1024, .f32⟩ : BufTy).Contents (Elt F) → (⟨S64x1024x1024, .f32⟩ : BufTy).Contents (Elt F) → (⟨S64x1024x1024, .f32⟩ : BufTy).Contents (Elt F)) ]

theorem softmax2Ops_sub : (softmax2Ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- @main's operations 93 … 98: the third round's vote. -/
abbrev vote3Ops : List (HloOp τ sig (Elt F)) :=
  [ binary main_v4 main_v69 main_v70 (mulf : (⟨S64x1024x1024, .f32⟩ : BufTy).Contents (Elt F) → (⟨S64x1024x1024, .f32⟩ : BufTy).Contents (Elt F) → (⟨S64x1024x1024, .f32⟩ : BufTy).Contents (Elt F)),
    nullary main_cst_13 (constant S_ .f32 0x00000000#32),
    binary main_v70 main_cst_13 main_v71 ((fun x v => Host.reduceAdd x v reducesTo_S64x1024x1024_S64x1024_d1 h_S_) : (⟨S64x1024x1024, .f32⟩ : BufTy).Contents (Elt F) → (⟨S_, .f32⟩ : BufTy).Contents (Elt F) → (⟨S64x1024, .f32⟩ : BufTy).Contents (Elt F)),
    unary main_arg2 main_v72 (broadcastInDim S1x1024 ![1] bcast_S1024_S1x1024_1 : (⟨S1024, .f32⟩ : BufTy).Contents (Elt F) → (⟨S1x1024, .f32⟩ : BufTy).Contents (Elt F)),
    unary main_v72 main_v73 (broadcastInDim S64x1024 ![0, 1] bcast_S1x1024_S64x1024_0_1 : (⟨S1x1024, .f32⟩ : BufTy).Contents (Elt F) → (⟨S64x1024, .f32⟩ : BufTy).Contents (Elt F)),
    binary main_v71 main_v73 main_v74 (addf : (⟨S64x1024, .f32⟩ : BufTy).Contents (Elt F) → (⟨S64x1024, .f32⟩ : BufTy).Contents (Elt F) → (⟨S64x1024, .f32⟩ : BufTy).Contents (Elt F)) ]

theorem vote3Ops_sub : (vote3Ops : List (HloOp τ sig (Elt F))).Forall fun op => op.bufs ⊆ tcRefs τ sig :=
  ⟨binary_bufs_sub .., nullary_bufs_sub .., binary_bufs_sub .., unary_bufs_sub .., unary_bufs_sub .., binary_bufs_sub ..⟩

/-- @main's operations 99 … 115: the third squash. -/
abbrev squash3Ops : List (HloOp τ sig (Elt F)) :=
  [ TRef.binary (TRef.of (T := ⟨S64x1024, .f32⟩) main_v74) (TRef.of (T := ⟨S64x1024, .f32⟩) main_v74) (TRef.of (T := ⟨S64x1024, .f32⟩) main_call2_v0) mulf,
    TRef.nullary (TRef.of (T := ⟨S_, .f32⟩) main_call2_cst) (constant S_ .f32 0x00000000#32),
    TRef.binary (TRef.of (T := ⟨S64x1024, .f32⟩) main_call2_v0) (TRef.of (T := ⟨S_, .f32⟩) main_call2_cst) (TRef.of (T := ⟨S64, .f32⟩) main_call2_v1) (fun x v => Host.reduceAdd x v reducesTo_S64x1024_S64_d1 h_S_),
    TRef.unary (TRef.of (T := ⟨S64, .f32⟩) main_call2_v1) (TRef.of (T := ⟨S64x1, .f32⟩) main_call2_v2) (broadcastInDim S64x1 ![0] bcast_S64_S64x1_0),
    TRef.unary (TRef.of (T := ⟨S64x1, .f32⟩) main_call2_v2) (TRef.of (T := ⟨S64x1, .f32⟩) main_v75) Host.sqrt,
    binary main_v75 main_v75 main_v76 (mulf : (⟨S64x1, .f32⟩ : BufTy).Contents (Elt F) → (⟨S64x1, .f32⟩ : BufTy).Contents (Elt F) → (⟨S64x1, .f32⟩ : BufTy).Contents (Elt F)),
    nullary main_cst_14 (constant S_ .f32 0x3F800000#32),
    unary main_cst_14 main_v77 (broadcastInDim S64x1 ![] bcast_S_S64x1 : (⟨S_, .f32⟩ : BufTy).Contents (Elt F) → (⟨S64x1, .f32⟩ : BufTy).Contents (Elt F)),
    binary main_v77 main_v76 main_v78 (addf : (⟨S64x1, .f32⟩ : BufTy).Contents (Elt F) → (⟨S64x1, .f32⟩ : BufTy).Contents (Elt F) → (⟨S64x1, .f32⟩ : BufTy).Contents (Elt F)),
    binary main_v76 main_v78 main_v79 (Host.divf : (⟨S64x1, .f32⟩ : BufTy).Contents (Elt F) → (⟨S64x1, .f32⟩ : BufTy).Contents (Elt F) → (⟨S64x1, .f32⟩ : BufTy).Contents (Elt F)),
    unary main_v79 main_v80 (broadcastInDim S64x1024 ![0, 1] bcast_S64x1_S64x1024_0_1 : (⟨S64x1, .f32⟩ : BufTy).Contents (Elt F) → (⟨S64x1024, .f32⟩ : BufTy).Contents (Elt F)),
    binary main_v80 main_v74 main_v81 (mulf : (⟨S64x1024, .f32⟩ : BufTy).Contents (Elt F) → (⟨S64x1024, .f32⟩ : BufTy).Contents (Elt F) → (⟨S64x1024, .f32⟩ : BufTy).Contents (Elt F)),
    nullary main_cst_15 (constant S_ .f32 0x3727C5AC#32),
    unary main_cst_15 main_v82 (broadcastInDim S64x1 ![] bcast_S_S64x1 : (⟨S_, .f32⟩ : BufTy).Contents (Elt F) → (⟨S64x1, .f32⟩ : BufTy).Contents (Elt F)),
    binary main_v75 main_v82 main_v83 (addf : (⟨S64x1, .f32⟩ : BufTy).Contents (Elt F) → (⟨S64x1, .f32⟩ : BufTy).Contents (Elt F) → (⟨S64x1, .f32⟩ : BufTy).Contents (Elt F)),
    unary main_v83 main_v84 (broadcastInDim S64x1024 ![0, 1] bcast_S64x1_S64x1024_0_1 : (⟨S64x1, .f32⟩ : BufTy).Contents (Elt F) → (⟨S64x1024, .f32⟩ : BufTy).Contents (Elt F)),
    binary main_v81 main_v84 main_v85 (Host.divf : (⟨S64x1024, .f32⟩ : BufTy).Contents (Elt F) → (⟨S64x1024, .f32⟩ : BufTy).Contents (Elt F) → (⟨S64x1024, .f32⟩ : BufTy).Contents (Elt F)) ]

theorem squash3Ops_sub : (squash3Ops : List (HloOp τ sig (Elt F))).Forall fun op => op.bufs ⊆ tcRefs τ sig :=
  ⟨binary_bufs_sub .., nullary_bufs_sub .., binary_bufs_sub .., unary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., unary_bufs_sub .., binary_bufs_sub ..⟩

/-- @main's operations, in order. -/
abbrev ops : List (HloOp τ sig (Elt F)) :=
  votesOps ++ vote1Ops ++ squash1Ops ++ update1Ops ++ softmax1Ops ++ vote2Ops ++ squash2Ops ++ update2Ops ++ softmax2Ops ++ vote3Ops ++ squash3Ops

attribute [local irreducible] Host.reduce in
set_option maxRecDepth 8192 in
set_option maxHeartbeats 4000000 in
theorem main_eq (c : Dev nD) : main (F := F) c = seq ops := by
  simp only [main, main_part0, main_part1, fn_norm.body, ops, votesOps, vote1Ops, squash1Ops, update1Ops, softmax1Ops, vote2Ops, squash2Ops, update2Ops, softmax2Ops, vote3Ops, squash3Ops, List.cons_append, List.nil_append,
    seq, bind_assoc, pure_bind]
theorem scopedRefs_eq : (Finset.univ.filter fun b : Ref sig .tc => b.isScoped) = ∅ := by decide
theorem scopedSems_eq : (Finset.univ.filter fun sm : SemLoc sig => sm.isScoped .tc) = ∅ := by decide

/-- A property of every operation of two lists holds of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append (forall_append (forall_append (forall_append (forall_append (forall_append (forall_append (forall_append (forall_append (forall_append (votesOps_sub) vote1Ops_sub) squash1Ops_sub) update1Ops_sub) softmax1Ops_sub) vote2Ops_sub) squash2Ops_sub) update2Ops_sub) softmax2Ops_sub) vote3Ops_sub) squash3Ops_sub

/-- The contents after two stretches run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

attribute [local irreducible] Host.reduce in
set_option maxRecDepth 8192 in
set_option maxHeartbeats 4000000 in
/-- The result buffer after all the operations, from any contents V: the third round over V's argument arrays. -/
theorem result_eq (V : Valuation τ sig (Elt F)) :
    after ops V (Proc.devRef .tc main_v85) = s3 (V (Proc.devRef .tc main_arg0)) (V (Proc.devRef .tc main_arg1)) (V (Proc.devRef .tc main_arg2)) := by
  simp only [ops, after_append]
  -- the votes
  have a1 : after votesOps V (Proc.devRef .tc main_v4) = (votesA (V (Proc.devRef .tc main_arg0)) (V (Proc.devRef .tc main_arg1))) := by after_results_simp; rfl
  have k1 : after votesOps V (Proc.devRef .tc main_arg2) = (V (Proc.devRef .tc main_arg2)) := by after_results_simp
  generalize after votesOps V = W1 at a1 k1 ⊢
  -- the first vote
  have a2 : after vote1Ops W1 (Proc.devRef .tc main_v12) = voteA (votesA (V (Proc.devRef .tc main_arg0)) (V (Proc.devRef .tc main_arg1))) uniformA (V (Proc.devRef .tc main_arg2)) := by after_results_simp; rw [a1, k1]; rfl
  have u2 : after vote1Ops W1 (Proc.devRef .tc main_v4) = (votesA (V (Proc.devRef .tc main_arg0)) (V (Proc.devRef .tc main_arg1))) := by after_results_simp; exact a1
  have k2 : after vote1Ops W1 (Proc.devRef .tc main_arg2) = (V (Proc.devRef .tc main_arg2)) := by after_results_simp; exact k1
  have z2 : after vote1Ops W1 (Proc.devRef .tc main_v6) = (zeroA (F := F)) := by after_results_simp; rfl
  clear a1 k1
  generalize after vote1Ops W1 = W2 at a2 u2 k2 z2 ⊢
  -- the first squash
  have a3 : after squash1Ops W2 (Proc.devRef .tc main_v23) = (s1 (V (Proc.devRef .tc main_arg0)) (V (Proc.devRef .tc main_arg1)) (V (Proc.devRef .tc main_arg2))) := by after_results_simp; rw [a2]; rfl
  have u3 : after squash1Ops W2 (Proc.devRef .tc main_v4) = (votesA (V (Proc.devRef .tc main_arg0)) (V (Proc.devRef .tc main_arg1))) := by after_results_simp; exact u2
  have k3 : after squash1Ops W2 (Proc.devRef .tc main_arg2) = (V (Proc.devRef .tc main_arg2)) := by after_results_simp; exact k2
  have z3 : after squash1Ops W2 (Proc.devRef .tc main_v6) = (zeroA (F := F)) := by after_results_simp; exact z2
  clear a2 u2 k2 z2
  generalize after squash1Ops W2 = W3 at a3 u3 k3 z3 ⊢
  -- the logits after the first round
  have a4 : after update1Ops W3 (Proc.devRef .tc main_v27) = (g1 (V (Proc.devRef .tc main_arg0)) (V (Proc.devRef .tc main_arg1)) (V (Proc.devRef .tc main_arg2))) := by after_results_simp; rw [a3, u3, z3]; rfl
  have u4 : after update1Ops W3 (Proc.devRef .tc main_v4) = (votesA (V (Proc.devRef .tc main_arg0)) (V (Proc.devRef .tc main_arg1))) := by after_results_simp; exact u3
  have k4 : after update1Ops W3 (Proc.devRef .tc main_arg2) = (V (Proc.devRef .tc main_arg2)) := by after_results_simp; exact k3
  clear a3 u3 k3 z3
  generalize after update1Ops W3 = W4 at a4 u4 k4 ⊢
  -- their softmax
  have a5 : after softmax1Ops W4 (Proc.devRef .tc main_v38) = softmaxA (g1 (V (Proc.devRef .tc main_arg0)) (V (Proc.devRef .tc main_arg1)) (V (Proc.devRef .tc main_arg2))) := by after_results_simp; rw [a4]; rfl
  have g5 : after softmax1Ops W4 (Proc.devRef .tc main_v27) = (g1 (V (Proc.devRef .tc main_arg0)) (V (Proc.devRef .tc main_arg1)) (V (Proc.devRef .tc main_arg2))) := by after_results_simp; exact a4
  have u5 : after softmax1Ops W4 (Proc.devRef .tc main_v4) = (votesA (V (Proc.devRef .tc main_arg0)) (V (Proc.devRef .tc main_arg1))) := by after_results_simp; exact u4
  have k5 : after softmax1Ops W4 (Proc.devRef .tc main_arg2) = (V (Proc.devRef .tc main_arg2)) := by after_results_simp; exact k4
  clear a4 u4 k4
  generalize after softmax1Ops W4 = W5 at a5 g5 u5 k5 ⊢
  -- the second vote
  have a6 : after vote2Ops W5 (Proc.devRef .tc main_v43) = voteA (votesA (V (Proc.devRef .tc main_arg0)) (V (Proc.devRef .tc main_arg1))) (softmaxA (g1 (V (Proc.devRef .tc main_arg0)) (V (Proc.devRef .tc main_arg1)) (V (Proc.devRef .tc main_arg2)))) (V (Proc.devRef .tc main_arg2)) := by after_results_simp; rw [a5, u5, k5]; rfl
  have g6 : after vote2Ops W5 (Proc.devRef .tc main_v27) = (g1 (V (Proc.devRef .tc main_arg0)) (V (Proc.devRef .tc main_arg1)) (V (Proc.devRef .tc main_arg2))) := by after_results_simp; exact g5
  have u6 : after vote2Ops W5 (Proc.devRef .tc main_v4) = (votesA (V (Proc.devRef .tc main_arg0)) (V (Proc.devRef .tc main_arg1))) := by after_results_simp; exact u5
  have k6 : after vote2Ops W5 (Proc.devRef .tc main_arg2) = (V (Proc.devRef .tc main_arg2)) := by after_results_simp; exact k5
  clear a5 g5 u5 k5
  generalize after vote2Ops W5 = W6 at a6 g6 u6 k6 ⊢
  -- the second squash
  have a7 : after squash2Ops W6 (Proc.devRef .tc main_v54) = (s2 (V (Proc.devRef .tc main_arg0)) (V (Proc.devRef .tc main_arg1)) (V (Proc.devRef .tc main_arg2))) := by after_results_simp; rw [a6]; rfl
  have g7 : after squash2Ops W6 (Proc.devRef .tc main_v27) = (g1 (V (Proc.devRef .tc main_arg0)) (V (Proc.devRef .tc main_arg1)) (V (Proc.devRef .tc main_arg2))) := by after_results_simp; exact g6
  have u7 : after squash2Ops W6 (Proc.devRef .tc main_v4) = (votesA (V (Proc.devRef .tc main_arg0)) (V (Proc.devRef .tc main_arg1))) := by after_results_simp; exact u6
  have k7 : after squash2Ops W6 (Proc.devRef .tc main_arg2) = (V (Proc.devRef .tc main_arg2)) := by after_results_simp; exact k6
  clear a6 g6 u6 k6
  generalize after squash2Ops W6 = W7 at a7 g7 u7 k7 ⊢
  -- the logits after the second round
  have a8 : after update2Ops W7 (Proc.devRef .tc main_v58) = (g2 (V (Proc.devRef .tc main_arg0)) (V (Proc.devRef .tc main_arg1)) (V (Proc.devRef .tc main_arg2))) := by after_results_simp; rw [a7, g7, u7]; rfl
  have u8 : after update2Ops W7 (Proc.devRef .tc main_v4) = (votesA (V (Proc.devRef .tc main_arg0)) (V (Proc.devRef .tc main_arg1))) := by after_results_simp; exact u7
  have k8 : after update2Ops W7 (Proc.devRef .tc main_arg2) = (V (Proc.devRef .tc main_arg2)) := by after_results_simp; exact k7
  clear a7 g7 u7 k7
  generalize after update2Ops W7 = W8 at a8 u8 k8 ⊢
  -- their softmax
  have a9 : after softmax2Ops W8 (Proc.devRef .tc main_v69) = softmaxA (g2 (V (Proc.devRef .tc main_arg0)) (V (Proc.devRef .tc main_arg1)) (V (Proc.devRef .tc main_arg2))) := by after_results_simp; rw [a8]; rfl
  have u9 : after softmax2Ops W8 (Proc.devRef .tc main_v4) = (votesA (V (Proc.devRef .tc main_arg0)) (V (Proc.devRef .tc main_arg1))) := by after_results_simp; exact u8
  have k9 : after softmax2Ops W8 (Proc.devRef .tc main_arg2) = (V (Proc.devRef .tc main_arg2)) := by after_results_simp; exact k8
  clear a8 u8 k8
  generalize after softmax2Ops W8 = W9 at a9 u9 k9 ⊢
  -- the third vote
  have a10 : after vote3Ops W9 (Proc.devRef .tc main_v74) = voteA (votesA (V (Proc.devRef .tc main_arg0)) (V (Proc.devRef .tc main_arg1))) (softmaxA (g2 (V (Proc.devRef .tc main_arg0)) (V (Proc.devRef .tc main_arg1)) (V (Proc.devRef .tc main_arg2)))) (V (Proc.devRef .tc main_arg2)) := by after_results_simp; rw [a9, u9, k9]; rfl
  clear a9 u9 k9
  generalize after vote3Ops W9 = W10 at a10 ⊢
  -- the third squash
  after_results_simp
  rw [a10]
  rfl

attribute [local irreducible] Host.reduce in
set_option maxRecDepth 8192 in
set_option maxHeartbeats 4000000 in
/-- The run: every weakly fair execution terminates with the result buffer at the third round of the argument arrays
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85)
        = s3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v85).trans (result_eq _),
      (h c main_arg0).trans (by simp only [ops, after_append]; after_results_simp <;> rfl),
      (h c main_arg1).trans (by simp only [ops, after_append]; after_results_simp <;> rfl),
      (h c main_arg2).trans (by simp only [ops, after_append]; after_results_simp <;> rfl)⟩)
    (run_seq scopedRefs_eq scopedSems_eq defs main (fun _ => ops) main_eq (fun _ => ops_sub) m ρ)

end Cert.ReferenceIdeal.HandRun

end
-- ==== Proof.lean ====
/-
  Capsule routing, kernel against reference, on the extended reals.

  Both programs compute, for each of the 64 batch rows, three rounds of routing by agreement over 1024 input capsules and
  1024 output lanes (Proof/Routing.lean): votes u·w, a weighted vote plus bias, a squash, and logits that grow by
  votes · squashed row, with the softmax of the logits as the next coefficients. The kernel does it two rows per grid
  point, the capsules 256 at a time through two scratch arrays (Proof/ChunkOps.lean, BlockFn.lean, BlockRows.lean,
  KernelValue.lean); the reference on whole arrays (Proof/HostOps.lean, RefRoute.lean, RefRun.lean). They differ by
  the order of the capsule sum, by the first round's uniform coefficient 2⁻¹⁰ (a constant in the reference, the softmax
  of a zero row in the kernel) and by the squared length (∑ x² in the kernel, (√∑ x²)² in the reference): three
  identities of the extended reals that need no finiteness, so the precondition is never opened.
-/
import proofs.«110863_j61160334295610_2_alg».proof.Defs
import proofs.«110863_j61160334295610_2_alg».proof.Proof.Gen.Kernel
import proofs.«110863_j61160334295610_2_alg».proof.Proof.Gen.Kernel.Frame
import proofs.«110863_j61160334295610_2_alg».proof.Proof.Gen.KernelIdeal
import proofs.«110863_j61160334295610_2_alg».proof.Proof.Gen.KernelIdeal.Frame
import proofs.«110863_j61160334295610_2_alg».proof.Proof.Gen.ReferenceIdeal
import proofs.«110863_j61160334295610_2_alg».proof.Proof.Gen.Pre_finite_inputs
import proofs.«110863_j61160334295610_2_alg».proof.Proof.KernelValue
import proofs.«110863_j61160334295610_2_alg».proof.Proof.RefRun
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote nothing. -/
theorem preserves : Cert.preserves_Kernel_KernelIdeal := trivial

/-- Both results hold, at (b, o), the routing of row b of u with w and the bias. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2]
  funext y
  obtain ⟨b, o, rfl⟩ : ∃ (b : Fin 64) (o : Fin 1024), y = ix2 b o := ⟨y 0, y 1, eq_ix2 y⟩
  rw [Cert.ReferenceIdeal.Rows.s3_apply]
  exact (Cert.KernelIdeal.Whole.result_apply m c b o).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
